-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 102
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S50000x128, .f32⟩
  | .hbm, ⟨61, _⟩ => ⟨S850000x1, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x128, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S850000x1, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x128, .f32⟩
  | .hbm, ⟨95, _⟩ => ⟨S850000x128, .f32⟩
  | .hbm, ⟨96, _⟩ => ⟨S_, .f32⟩
  | .hbm, ⟨97, _⟩ => ⟨S50000x128, .f32⟩
  | .hbm, ⟨98, _⟩ => ⟨S850000x1, .i32⟩
  | .hbm, ⟨99, _⟩ => ⟨S50000x128, .f32⟩
  | .hbm, ⟨100, _⟩ => ⟨S1x128, .f32⟩
  | .hbm, ⟨101, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x128, .f32⟩
  | 61 => ⟨S850000x1, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .i1⟩
  | 99 => ⟨S_, .f32⟩
  | 100 => ⟨S50000x128, .f32⟩
  | 101 => ⟨S50000x128, .i1⟩
  | 102 => ⟨S_, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S50000x128, .f32⟩
  | 112 => ⟨S850000x1, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_cst_1 : Ref sig .tc := ⟨.hbm, 102, rfl⟩
abbrev main_call2_call0_v0 : Ref sig .tc := ⟨.hbm, 103, rfl⟩
abbrev main_call2_call0_v1 : Ref sig .tc := ⟨.hbm, 104, rfl⟩
abbrev main_call2_v4 : Ref sig .tc := ⟨.hbm, 105, rfl⟩
abbrev main_call2_v5 : Ref sig .tc := ⟨.hbm, 106, rfl⟩
abbrev main_call2_cst_2 : Ref sig .tc := ⟨.hbm, 107, rfl⟩
abbrev main_call2_v6 : Ref sig .tc := ⟨.hbm, 108, rfl⟩
abbrev main_call2_v7 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_12 : Ref sig .tc := ⟨.hbm, 113, rfl⟩
abbrev main_v70 : Ref sig .tc := ⟨.hbm, 114, rfl⟩
abbrev main_v71 : Ref sig .tc := ⟨.hbm, 115, rfl⟩
abbrev main_c_13 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_14 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_15 : Ref sig .tc := ⟨.hbm, 133, rfl⟩
abbrev main_v87 : Ref sig .tc := ⟨.hbm, 134, rfl⟩
abbrev main_v88 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel's program, run to the end, with its RESULT kept: every weakly fair execution terminates, nothing
  faulting, and the result buffer ends at what the last boundary of the segment chain holds there — the contents fold
  through the host stretches and the four regions' write-backs — while the eleven argument arrays end as launched.
  The thread state after the last segment holds every unscoped buffer at the last boundary's contents; the result
  buffer is one of them.
-/
import proofs.«126857_j15487652069901_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result: the result buffer at the last boundary's contents, the arguments as launched. -/
theorem run : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Result

end
-- ==== Proof.Glue.lean ====
/-
  The parts of the computation that the kernel's program and the reference share, and the reference's three dense
  pieces, each as ONE function of its operands: compositions of the same pure operations the printed programs apply,
  in the same order.

  A graph on 50000 nodes is given by 800000 directed edges (row 0 of the edge list: sources, row 1: targets) with
  weights; every node gets a self loop of weight 1, so there are 850000 edges. With deg(v) the sum of the weights of
  the edges into v and dis(v) = deg(v)^(-1/2) where deg(v) > 0, else 0, an edge e = (s → t) of weight w gets the
  coefficient norm(e) = dis(s) · w · dis(t). One graph convolution of a feature matrix h is
  agg(h)[v, :] = Σ over the edges e = (s → v) of norm(e) · h[s, :].
-/
import proofs.«126857_j15487652069901_2_alg».proof.ReferenceIdeal
import proofs.«126857_j15487652069901_2_alg».proof.Proof.Gen.ReferenceIdeal

noncomputable section

namespace Cert.Glue

open Idealize.ShloMosaic Cert.ReferenceIdeal Cert.ReferenceIdeal.Facts₀

variable {F : FTy → Type} [FloatOps F]

/-- A scalar float constant as a tensor of the given shape. -/
abbrev fill (s : Shape) (h : S_.BroadcastsInDim s (![] : Fin 0 → Fin s.rank)) (w : BitVec 32) :
    (⟨s, .f32⟩ : BufTy).Contents (Elt F) :=
  broadcastInDim s ![] h (constant S_ .f32 w)

/-- One endpoint row of the edge list, as a vector of 800000 node numbers. -/
abbrev edgeRow (a1 : (⟨S2x800000, .i32⟩ : BufTy).Contents (Elt F)) (r : Fin 2 → ℕ)
    (h : S2x800000.Slices r S1x800000) : (⟨S800000, .i32⟩ : BufTy).Contents (Elt F) :=
  fun i => shapeCast S800000 (extractStridedSlice S1x800000 r a1 h) shapeCasts_S1x800000_S800000 i

/-- The sources of the 850000 edges: row 0 of the edge list, then the self loops 0 … 49999. -/
def srcIdx (a1 : (⟨S2x800000, .i32⟩ : BufTy).Contents (Elt F)) : (⟨S850000, .i32⟩ : BufTy).Contents (Elt F) :=
  concatenate S850000 0 [⟨S800000, edgeRow a1 ![0, 0] slices_S2x800000_S1x800000_0_0⟩, ⟨S50000, iotaInDim S50000 32 0⟩]
    concatenates_S800000_S50000_S850000_d0

/-- The targets of the 850000 edges: row 1 of the edge list, then the self loops. -/
def dstIdx (a1 : (⟨S2x800000, .i32⟩ : BufTy).Contents (Elt F)) : (⟨S850000, .i32⟩ : BufTy).Contents (Elt F) :=
  concatenate S850000 0 [⟨S800000, edgeRow a1 ![1, 0] slices_S2x800000_S1x800000_1_0⟩, ⟨S50000, iotaInDim S50000 32 0⟩]
    concatenates_S800000_S50000_S850000_d0

/-- The 850000 edge weights: the given ones, then 1 for every self loop. -/
def edgeW (a2 : (⟨S800000, .f32⟩ : BufTy).Contents (Elt F)) : (⟨S850000, .f32⟩ : BufTy).Contents (Elt F) :=
  concatenate S850000 0 [⟨S800000, a2⟩, ⟨S50000, fill S50000 bcast_S_S50000 0x3F800000#32⟩]
    concatenates_S800000_S50000_S850000_d0

/-- A node number used as a gather index: a negative one counts from the end (50000 is added). -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- deg(v): the sum of the weights of the edges into node v. -/
def degree (a1 : (⟨S2x800000, .i32⟩ : BufTy).Contents (Elt F)) (a2 : (⟨S800000, .f32⟩ : BufTy).Contents (Elt F)) :
    (⟨S50000, .f32⟩ : BufTy).Contents (Elt F) :=
  Host.scatterAdd scatter_S50000_S850000x1_S850000_n_0_0_1 (fill S50000 bcast_S_S50000 0x00000000#32)
    (broadcastInDim S850000x1 ![0] bcast_S850000_S850000x1_0 (dstIdx a1)) (edgeW a2)

/-- dis(v) = deg(v)^(-1/2) where deg(v) > 0 (the root taken of 1 elsewhere), and 0 elsewhere. -/
def invSqrtDeg (deg : (⟨S50000, .f32⟩ : BufTy).Contents (Elt F)) : (⟨S50000, .f32⟩ : BufTy).Contents (Elt F) :=
  select (cmpf .ogt deg (fill S50000 bcast_S_S50000 0x00000000#32))
    (Host.rsqrt (select (cmpf .ogt deg (fill S50000 bcast_S_S50000 0x00000000#32)) deg
      (broadcastInDim S50000 ![] bcast_S_S50000 (id (constant S_ .f32 0x3F800000#32)))))
    (broadcastInDim S50000 ![] bcast_S_S50000 (id (constant S_ .f32 0x00000000#32)))

/-- norm(e) = dis(source e) · w(e) · dis(target e), for each of the 850000 edges. -/
def norm (a1 : (⟨S2x800000, .i32⟩ : BufTy).Contents (Elt F)) (a2 : (⟨S800000, .f32⟩ : BufTy).Contents (Elt F)) :
    (⟨S850000, .f32⟩ : BufTy).Contents (Elt F) :=
  mulf (mulf (Host.gather gather_S50000_S850000x1_S850000_n_0_n_n_0_1_1 (invSqrtDeg (degree a1 a2)) (wrapIdx (srcIdx a1))) (edgeW a2))
    (Host.gather gather_S50000_S850000x1_S850000_n_0_n_n_0_1_1 (invSqrtDeg (degree a1 a2)) (wrapIdx (dstIdx a1)))

/-- The dense layer's product x · w, a 50000×128 by 128×128 matrix product. -/
def mm (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- agg(h)[v, :] = Σ over the edges e = (s → v) of nrm(e) · h[s, :]: the rows of h gathered at the sources, scaled
    edge by edge, and summed into the targets' rows. -/
def agg (h : (⟨S50000x128, .f32⟩ : BufTy).Contents (Elt F)) (nrm : (⟨S850000, .f32⟩ : BufTy).Contents (Elt F))
    (s d : (⟨S850000, .i32⟩ : BufTy).Contents (Elt F)) : (⟨S50000x128, .f32⟩ : BufTy).Contents (Elt F) :=
  Host.scatterAdd scatter_S50000x128_S850000x1_S850000x128_1_0_0_1 (fill S50000x128 bcast_S_S50000x128 0x00000000#32)
    (broadcastInDim S850000x1 ![0] bcast_S850000_S850000x1_0 d)
    (mulf (broadcastInDim S850000x128 ![0, 1] bcast_S850000x1_S850000x128_0_1 (broadcastInDim S850000x1 ![0] bcast_S850000_S850000x1_0 nrm))
      (Host.gather gather_S50000x128_S850000x1_S850000x128_1_0_n_n_0_1_1128 h (wrapIdx s)))

/-- A vector of 128 per-feature parameters repeated along the 50000 rows. -/
abbrev rows (p : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 p)

/-- elu(x) = x where x > 0, and e^x − 1 elsewhere (the exponential taken of 0 where x > 0), as the reference spells it. -/
def elu (x : (⟨S50000x128, .f32⟩ : BufTy).Contents (Elt F)) : (⟨S50000x128, .f32⟩ : BufTy).Contents (Elt F) :=
  select (cmpf .ogt x (fill S50000x128 bcast_S_S50000x128 0x00000000#32)) x
    (mulf (fill S50000x128 bcast_S_S50000x128 0x3F800000#32)
      (Host.expm1 (select (cmpf .ogt x (fill S50000x128 bcast_S_S50000x128 0x00000000#32))
        (broadcastInDim S50000x128 ![] bcast_S_S50000x128 (id (constant S_ .f32 0x00000000#32))) x)))

/-- The first layer after the aggregation: the bias, the batch normalisation
    ((a + b0 − mean) · (var + ε)^(-1/2) · gamma + beta, feature by feature) and elu. -/
def bnElu (a : (⟨S50000x128, .f32⟩ : BufTy).Contents (Elt F)) (b0 gamma beta mean var : (⟨S128, .f32⟩ : BufTy).Contents (Elt F)) :
    (⟨S50000x128, .f32⟩ : BufTy).Contents (Elt F) :=
  elu (addf (mulf (mulf (subf (addf a (rows b0)) (rows mean))
      (rows (Host.rsqrt (addf var (fill S128 bcast_S_S128 0x3727C5AC#32))))) (rows gamma)) (rows beta))

/-- The fusion of the three scales: (emb + h1 + (a2 + b1)) / 3. -/
def fuse (emb h1 a2 : (⟨S50000x128, .f32⟩ : BufTy).Contents (Elt F)) (b1 : (⟨S128, .f32⟩ : BufTy).Contents (Elt F)) :
    (⟨S50000x128, .f32⟩ : BufTy).Contents (Elt F) :=
  Host.divf (addf (addf emb h1) (addf a2 (rows b1))) (fill S50000x128 bcast_S_S50000x128 0x40400000#32)

/-- The first layer's output h1 as a function of the program's arguments. -/
def layer1 (a0 : (⟨S50000x128, .f32⟩ : BufTy).Contents (Elt F)) (a1 : (⟨S2x800000, .i32⟩ : BufTy).Contents (Elt F))
    (a2 : (⟨S800000, .f32⟩ : BufTy).Contents (Elt F)) (a3 : (⟨S128x128, .f32⟩ : BufTy).Contents (Elt F))
    (a4 a7 a8 a9 a10 : (⟨S128, .f32⟩ : BufTy).Contents (Elt F)) : (⟨S50000x128, .f32⟩ : BufTy).Contents (Elt F) :=
  bnElu (agg (mm a0 a3) (norm a1 a2) (srcIdx a1) (dstIdx a1)) a4 a7 a8 a9 a10

/-- The reference's result as a function of its eleven arguments. -/
def refOut (a0 : (⟨S50000x128, .f32⟩ : BufTy).Contents (Elt F)) (a1 : (⟨S2x800000, .i32⟩ : BufTy).Contents (Elt F))
    (a2 : (⟨S800000, .f32⟩ : BufTy).Contents (Elt F)) (a3 : (⟨S128x128, .f32⟩ : BufTy).Contents (Elt F))
    (a4 : (⟨S128, .f32⟩ : BufTy).Contents (Elt F)) (a5 : (⟨S128x128, .f32⟩ : BufTy).Contents (Elt F))
    (a6 a7 a8 a9 a10 : (⟨S128, .f32⟩ : BufTy).Contents (Elt F)) : (⟨S50000x128, .f32⟩ : BufTy).Contents (Elt F) :=
  fuse a0 (layer1 a0 a1 a2 a3 a4 a7 a8 a9 a10)
    (agg (mm (layer1 a0 a1 a2 a3 a4 a7 a8 a9 a10) a5) (norm a1 a2) (srcIdx a1) (dstIdx a1)) a6

end Cert.Glue

end
-- ==== Proof.Records.lean ====
/-
  The two programs print the same dimension numbers for their gathers, scatters and dense products, each under its own
  name: as records they are equal (the same lists; the well-formedness fields are propositions).
-/
import proofs.«126857_j15487652069901_2_alg».proof.Proof.Gen.KernelIdeal
import proofs.«126857_j15487652069901_2_alg».proof.Proof.Gen.ReferenceIdeal

noncomputable section

namespace Cert.Records

open Idealize.ShloMosaic

theorem gather1 : Cert.KernelIdeal.gather_S50000_S850000x1_S850000_n_0_n_n_0_1_1
    = Cert.ReferenceIdeal.gather_S50000_S850000x1_S850000_n_0_n_n_0_1_1 := rfl
theorem scatter1 : Cert.KernelIdeal.scatter_S50000_S850000x1_S850000_n_0_0_1
    = Cert.ReferenceIdeal.scatter_S50000_S850000x1_S850000_n_0_0_1 := rfl
theorem gather2 : Cert.KernelIdeal.gather_S50000x128_S850000x1_S850000x128_1_0_n_n_0_1_1128
    = Cert.ReferenceIdeal.gather_S50000x128_S850000x1_S850000x128_1_0_n_n_0_1_1128 := rfl
theorem scatter2 : Cert.KernelIdeal.scatter_S50000x128_S850000x1_S850000x128_1_0_0_1
    = Cert.ReferenceIdeal.scatter_S50000x128_S850000x1_S850000x128_1_0_0_1 := rfl

end Cert.Records

end
-- ==== Proof.Host0.lean ====
/-
  The host operations before the first region, read where the later segments need them: at the first region's entry
  the edge coefficients, the sources and the targets hold the graph normalisation of the edge list and the weights, and
  every argument array still holds what it was launched with (no host operation writes an argument).

  The coefficients are read stretch by stretch, each stretch over ARBITRARY contents of the buffers it finds: the
  degrees (a scatter-add of the weights into the targets), dis = deg^(-1/2) where deg > 0 and 0 elsewhere (two selects
  around a reciprocal square root), and norm = dis[source] · w · dis[target].
-/
import proofs.«126857_j15487652069901_2_alg».proof.Proof.Gen.KernelIdeal.Frame
import proofs.«126857_j15487652069901_2_alg».proof.Proof.Glue
import proofs.«126857_j15487652069901_2_alg».proof.Proof.Records
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL.Sem
open Cert.KernelIdeal Cert.KernelIdeal.Gen

/-- The 800000 given entries followed by the 50000 per-node ones, as a function of the two pieces. -/
def cat {α : Type} (a : S800000.Idx → α) (b : S50000.Idx → α) : S850000.Idx → α :=
  concatenate S850000 0 [⟨S800000, a⟩, ⟨S50000, b⟩] Facts₀.concatenates_S800000_S50000_S850000_d0
theorem cat_fold {α : Type} (a : S800000.Idx → α) (b : S50000.Idx → α) (h) :
    concatenate S850000 0 [⟨S800000, a⟩, ⟨S50000, b⟩] h = cat a b := rfl

/-- Reads a fold of literal host operations at a literal buffer: each operation's result at its own buffer is its
    function's value, at any other buffer what was there; a two-piece concatenation is read through its pieces. -/
macro "read_fold" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat_fold])

section Stretches
variable (E : Valuation τ sig (Elt Ideal))

/-! ### The first stretch: endpoints, weights, degrees -/

theorem src1 : after hostOps0 E (Proc.devRef .tc main_v3) = Cert.Glue.srcIdx (F := Ideal) (E (Proc.devRef .tc main_arg1)) := by
  dsimp only [hostOps0]; read_fold; simp only [cat]; rfl
theorem dst1 : after hostOps0 E (Proc.devRef .tc main_v6) = Cert.Glue.dstIdx (F := Ideal) (E (Proc.devRef .tc main_arg1)) := by
  dsimp only [hostOps0]; read_fold; simp only [cat]; rfl
theorem wts1 : after hostOps0 E (Proc.devRef .tc main_v8) = Cert.Glue.edgeW (F := Ideal) (E (Proc.devRef .tc main_arg2)) := by
  dsimp only [hostOps0]; read_fold; simp only [cat]; rfl
theorem deg1 : after hostOps0 E (Proc.devRef .tc main_v11)
    = Cert.Glue.degree (F := Ideal) (E (Proc.devRef .tc main_arg1)) (E (Proc.devRef .tc main_arg2)) := by
  dsimp only [hostOps0]; read_fold; simp only [Cert.Records.scatter1, cat]; rfl
theorem pos1 : after hostOps0 E (Proc.devRef .tc main_v13)
    = cmpf (F := Ideal) (s := Cert.ReferenceIdeal.S50000) (φ := .f32) .ogt
        (Cert.Glue.degree (F := Ideal) (E (Proc.devRef .tc main_arg1)) (E (Proc.devRef .tc main_arg2)))
        (Cert.Glue.fill (F := Ideal) Cert.ReferenceIdeal.S50000 Cert.ReferenceIdeal.Facts₀.bcast_S_S50000 0x00000000#32) := by
  dsimp only [hostOps0]; read_fold; simp only [Cert.Records.scatter1, cat]; rfl
theorem one1 : after hostOps0 E (Proc.devRef .tc main_cst_2) = constant (F := Ideal) Cert.ReferenceIdeal.S_ .f32 0x3F800000#32 := by
  dsimp only [hostOps0]; read_fold

/-! ### The first select: deg where deg > 0, else 1 -/

theorem safe2 : after hostOps0_1 E (Proc.devRef .tc main_v14)
    = select (E (Proc.devRef .tc main_v13)) (E (Proc.devRef .tc main_v11))
        (broadcastInDim Cert.ReferenceIdeal.S50000 ![] Cert.ReferenceIdeal.Facts₀.bcast_S_S50000 (id (E (Proc.devRef .tc main_cst_2)))) := by
  dsimp only [hostOps0_1]; read_fold; rfl
theorem keep2 : after hostOps0_1 E (Proc.devRef .tc main_v3) = E (Proc.devRef .tc main_v3)
    ∧ after hostOps0_1 E (Proc.devRef .tc main_v6) = E (Proc.devRef .tc main_v6)
    ∧ after hostOps0_1 E (Proc.devRef .tc main_v8) = E (Proc.devRef .tc main_v8)
    ∧ after hostOps0_1 E (Proc.devRef .tc main_v11) = E (Proc.devRef .tc main_v11) := by
  refine ⟨?_, ?_, ?_, ?_⟩ <;> (dsimp only [hostOps0_1]; read_fold)

/-! ### The reciprocal square root and the second comparison -/

theorem pos3 : after hostOps0_2 E (Proc.devRef .tc main_v16)
    = cmpf (F := Ideal) (s := Cert.ReferenceIdeal.S50000) (φ := .f32) .ogt (E (Proc.devRef .tc main_v11))
        (Cert.Glue.fill (F := Ideal) Cert.ReferenceIdeal.S50000 Cert.ReferenceIdeal.Facts₀.bcast_S_S50000 0x00000000#32) := by
  dsimp only [hostOps0_2]; read_fold
theorem rsq3 : after hostOps0_2 E (Proc.devRef .tc main_v17)
    = Host.rsqrt (F := Ideal) (s := Cert.ReferenceIdeal.S50000) (φ := .f32) (E (Proc.devRef .tc main_v14)) := by
  dsimp only [hostOps0_2]; read_fold
theorem zero3 : after hostOps0_2 E (Proc.devRef .tc main_cst_4) = constant (F := Ideal) Cert.ReferenceIdeal.S_ .f32 0x00000000#32 := by
  dsimp only [hostOps0_2]; read_fold
theorem keep3 : after hostOps0_2 E (Proc.devRef .tc main_v3) = E (Proc.devRef .tc main_v3)
    ∧ after hostOps0_2 E (Proc.devRef .tc main_v6) = E (Proc.devRef .tc main_v6)
    ∧ after hostOps0_2 E (Proc.devRef .tc main_v8) = E (Proc.devRef .tc main_v8) := by
  refine ⟨?_, ?_, ?_⟩ <;> (dsimp only [hostOps0_2]; read_fold)

/-! ### The second select: the root where deg > 0, else 0 -/

theorem dis4 : after hostOps0_3 E (Proc.devRef .tc main_v18)
    = select (E (Proc.devRef .tc main_v16)) (E (Proc.devRef .tc main_v17))
        (broadcastInDim Cert.ReferenceIdeal.S50000 ![] Cert.ReferenceIdeal.Facts₀.bcast_S_S50000 (id (E (Proc.devRef .tc main_cst_4)))) := by
  dsimp only [hostOps0_3]; read_fold; rfl
theorem keep4 : after hostOps0_3 E (Proc.devRef .tc main_v3) = E (Proc.devRef .tc main_v3)
    ∧ after hostOps0_3 E (Proc.devRef .tc main_v6) = E (Proc.devRef .tc main_v6)
    ∧ after hostOps0_3 E (Proc.devRef .tc main_v8) = E (Proc.devRef .tc main_v8) := by
  refine ⟨?_, ?_, ?_⟩ <;> (dsimp only [hostOps0_3]; read_fold)

/-! ### The coefficients: dis[source] · w · dis[target] -/

/-- dis[source] · w · dis[target], edge by edge. -/
def normOf (dis : (⟨Cert.ReferenceIdeal.S50000, .f32⟩ : BufTy).Contents (Elt Ideal))
    (s d : (⟨Cert.ReferenceIdeal.S850000, .i32⟩ : BufTy).Contents (Elt Ideal))
    (w : (⟨Cert.ReferenceIdeal.S850000, .f32⟩ : BufTy).Contents (Elt Ideal)) :
    (⟨Cert.ReferenceIdeal.S850000, .f32⟩ : BufTy).Contents (Elt Ideal) :=
  mulf (F := Ideal) (s := Cert.ReferenceIdeal.S850000) (φ := .f32)
    (mulf (F := Ideal) (s := Cert.ReferenceIdeal.S850000) (φ := .f32)
      (Host.gather Cert.ReferenceIdeal.gather_S50000_S850000x1_S850000_n_0_n_n_0_1_1 dis (Cert.Glue.wrapIdx (F := Ideal) s)) w)
    (Host.gather Cert.ReferenceIdeal.gather_S50000_S850000x1_S850000_n_0_n_n_0_1_1 dis (Cert.Glue.wrapIdx (F := Ideal) d))

theorem norm5' : after hostOps0_4 E (Proc.devRef .tc main_v34)
    = normOf (E (Proc.devRef .tc main_v18)) (E (Proc.devRef .tc main_v3)) (E (Proc.devRef .tc main_v6)) (E (Proc.devRef .tc main_v8)) := by
  dsimp only [hostOps0_4]; read_fold; simp only [Cert.Records.gather1]; rfl
theorem keep5 : after hostOps0_4 E (Proc.devRef .tc main_v3) = E (Proc.devRef .tc main_v3)
    ∧ after hostOps0_4 E (Proc.devRef .tc main_v6) = E (Proc.devRef .tc main_v6) := by
  refine ⟨?_, ?_⟩ <;> (dsimp only [hostOps0_4]; read_fold)

end Stretches

variable (m : (ℓ : Loc nD τ sig) → Buf (Elt Ideal) ℓ) (ρ : Dev nD → PrngReg) (c : Dev nD)

/-- The sources of the 850000 edges, at the first region's entry. -/
theorem src5 : W5 m ρ c (Proc.devRef .tc main_v3) = Cert.Glue.srcIdx (F := Ideal) (m ((c : Thread nD τ).loc main_arg1)) :=
  ((keep5 (W4 m ρ c)).1.trans ((keep4 (W3 m ρ c)).1.trans ((keep3 (W2 m ρ c)).1.trans ((keep2 (W1 m ρ c)).1.trans
    (src1 (W0 m ρ c))))))

/-- The targets of the 850000 edges, at the first region's entry. -/
theorem dst5 : W5 m ρ c (Proc.devRef .tc main_v6) = Cert.Glue.dstIdx (F := Ideal) (m ((c : Thread nD τ).loc main_arg1)) :=
  ((keep5 (W4 m ρ c)).2.trans ((keep4 (W3 m ρ c)).2.1.trans ((keep3 (W2 m ρ c)).2.1.trans ((keep2 (W1 m ρ c)).2.1.trans
    (dst1 (W0 m ρ c))))))

-- the stretches' statements carry each buffer's shape as the signature's entry for it; matching those against the
-- literal shapes takes unfolding plain definitions inside type arguments
set_option backward.isDefEq.respectTransparency.types false in
/-- The edge coefficients, at the first region's entry. -/
theorem norm5 : W5 m ρ c (Proc.devRef .tc main_v34)
    = Cert.Glue.norm (F := Ideal) (m ((c : Thread nD τ).loc main_arg1)) (m ((c : Thread nD τ).loc main_arg2)) := by
  have hs : W4 m ρ c (Proc.devRef .tc main_v3) = Cert.Glue.srcIdx (F := Ideal) (m ((c : Thread nD τ).loc main_arg1)) :=
    (keep4 (W3 m ρ c)).1.trans ((keep3 (W2 m ρ c)).1.trans ((keep2 (W1 m ρ c)).1.trans (src1 (W0 m ρ c))))
  have hd : W4 m ρ c (Proc.devRef .tc main_v6) = Cert.Glue.dstIdx (F := Ideal) (m ((c : Thread nD τ).loc main_arg1)) :=
    (keep4 (W3 m ρ c)).2.1.trans ((keep3 (W2 m ρ c)).2.1.trans ((keep2 (W1 m ρ c)).2.1.trans (dst1 (W0 m ρ c))))
  have hw : W4 m ρ c (Proc.devRef .tc main_v8) = Cert.Glue.edgeW (F := Ideal) (m ((c : Thread nD τ).loc main_arg2)) :=
    (keep4 (W3 m ρ c)).2.2.trans ((keep3 (W2 m ρ c)).2.2.trans ((keep2 (W1 m ρ c)).2.2.1.trans (wts1 (W0 m ρ c))))
  have hdeg2 : W2 m ρ c (Proc.devRef .tc main_v11)
      = Cert.Glue.degree (F := Ideal) (m ((c : Thread nD τ).loc main_arg1)) (m ((c : Thread nD τ).loc main_arg2)) :=
    (keep2 (W1 m ρ c)).2.2.2.trans (deg1 (W0 m ρ c))
  have hsafe : W2 m ρ c (Proc.devRef .tc main_v14) = _ := safe2 (W1 m ρ c)
  have hdis : W4 m ρ c (Proc.devRef .tc main_v18)
      = Cert.Glue.invSqrtDeg (F := Ideal)
          (Cert.Glue.degree (F := Ideal) (m ((c : Thread nD τ).loc main_arg1)) (m ((c : Thread nD τ).loc main_arg2))) := by
    have h16 : W3 m ρ c (Proc.devRef .tc main_v16) = _ := pos3 (W2 m ρ c)
    have h17 : W3 m ρ c (Proc.devRef .tc main_v17) = _ := rsq3 (W2 m ρ c)
    have h4 : W3 m ρ c (Proc.devRef .tc main_cst_4) = _ := zero3 (W2 m ρ c)
    have h13 : W1 m ρ c (Proc.devRef .tc main_v13) = _ := pos1 (W0 m ρ c)
    have h11 : W1 m ρ c (Proc.devRef .tc main_v11) = _ := deg1 (W0 m ρ c)
    have h2 : W1 m ρ c (Proc.devRef .tc main_cst_2) = _ := one1 (W0 m ρ c)
    refine (dis4 (W3 m ρ c)).trans ?_
    rw [h16, h17, h4, hdeg2, hsafe, h13, h11, h2]
    rfl
  refine (norm5' (W4 m ρ c)).trans ?_
  rw [hs, hd, hw, hdis]
  rfl

/-- An argument array at the first region's entry is as launched. -/
theorem arg0_5 : W5 m ρ c (Proc.devRef .tc main_arg0) = m ((c : Thread nD τ).loc main_arg0) := by
  dsimp only [W5, W4, W3, W2, W1, W0, hostOps0, hostOps0_1, hostOps0_2, hostOps0_3, hostOps0_4]
  after_results_simp
theorem arg3_5 : W5 m ρ c (Proc.devRef .tc main_arg3) = m ((c : Thread nD τ).loc main_arg3) := by
  dsimp only [W5, W4, W3, W2, W1, W0, hostOps0, hostOps0_1, hostOps0_2, hostOps0_3, hostOps0_4]
  after_results_simp
theorem arg4_5 : W5 m ρ c (Proc.devRef .tc main_arg4) = m ((c : Thread nD τ).loc main_arg4) := by
  dsimp only [W5, W4, W3, W2, W1, W0, hostOps0, hostOps0_1, hostOps0_2, hostOps0_3, hostOps0_4]
  after_results_simp
theorem arg5_5 : W5 m ρ c (Proc.devRef .tc main_arg5) = m ((c : Thread nD τ).loc main_arg5) := by
  dsimp only [W5, W4, W3, W2, W1, W0, hostOps0, hostOps0_1, hostOps0_2, hostOps0_3, hostOps0_4]
  after_results_simp
theorem arg6_5 : W5 m ρ c (Proc.devRef .tc main_arg6) = m ((c : Thread nD τ).loc main_arg6) := by
  dsimp only [W5, W4, W3, W2, W1, W0, hostOps0, hostOps0_1, hostOps0_2, hostOps0_3, hostOps0_4]
  after_results_simp
theorem arg7_5 : W5 m ρ c (Proc.devRef .tc main_arg7) = m ((c : Thread nD τ).loc main_arg7) := by
  dsimp only [W5, W4, W3, W2, W1, W0, hostOps0, hostOps0_1, hostOps0_2, hostOps0_3, hostOps0_4]
  after_results_simp
theorem arg8_5 : W5 m ρ c (Proc.devRef .tc main_arg8) = m ((c : Thread nD τ).loc main_arg8) := by
  dsimp only [W5, W4, W3, W2, W1, W0, hostOps0, hostOps0_1, hostOps0_2, hostOps0_3, hostOps0_4]
  after_results_simp
theorem arg9_5 : W5 m ρ c (Proc.devRef .tc main_arg9) = m ((c : Thread nD τ).loc main_arg9) := by
  dsimp only [W5, W4, W3, W2, W1, W0, hostOps0, hostOps0_1, hostOps0_2, hostOps0_3, hostOps0_4]
  after_results_simp
theorem arg10_5 : W5 m ρ c (Proc.devRef .tc main_arg10) = m ((c : Thread nD τ).loc main_arg10) := by
  dsimp only [W5, W4, W3, W2, W1, W0, hostOps0, hostOps0_1, hostOps0_2, hostOps0_3, hostOps0_4]
  after_results_simp

end Cert.KernelIdeal.Chain

end
-- ==== Proof.Consts.lean ====
/-
  The float constants the two programs spell whose values the proof uses, as the extended reals their bit patterns
  denote: 1.0 is 1 and 3.0 is 3.
-/
import Idealize.ShloMosaic.PureOps.Ideal

noncomputable section

namespace Cert.Consts

open Idealize.ShloMosaic

/-- The pattern of 1.0 denotes 1. -/
theorem ofBits_one : Ideal.ofBits .f32 0x3F800000#32 = 1 := by
  simp [Ideal.ofBits, Ideal.ieee, -EReal.coe_mul]; norm_num

/-- The pattern of 3.0 denotes the real 3. -/
theorem ofBits_three : Ideal.ofBits .f32 0x40400000#32 = ((3 : ℝ) : EReal) := by
  simp [Ideal.ofBits, Ideal.ieee, -EReal.coe_mul]; norm_num

end Cert.Consts

end
-- ==== Proof.Dense.lean ====
/-
  The two programs' dense pieces read at ONE index, over the extended reals.

  A matrix product at (r, q) is the sum over k of x[r, k] · w[k, q]: for the reference's whole 50000×128 product and
  for the kernel's product of one 5000-row block alike (the kernel rounds its operands to bf16 first, which is the
  identity here, and accumulates into zero).
-/
import proofs.«126857_j15487652069901_2_alg».proof.Proof.Glue
import proofs.«126857_j15487652069901_2_alg».proof.Proof.Consts
import proofs.«126857_j15487652069901_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

/-- The reference's contraction: 50000×128 by 128×128. -/
abbrev DR := Cert.ReferenceIdeal.dot_S50000x128_S128x128_S50000x128_1_0_0_1_n_n
/-- The kernel's contraction: one 5000×128 block by 128×128. -/
abbrev DK := Cert.KernelIdeal.dot_S5000x128_S128x128_S5000x128_1_0_0_1_n_n

/-! ### The two contractions' operand indices, coordinate by coordinate -/

theorem lhsR_0 (j : Cert.ReferenceIdeal.S50000x128.Idx) (k : DR.contr.Idx) : (DR.lhsIdx j k 0 : ℕ) = j 0 := by
  simp [DotDims.lhsIdx, DR, Cert.ReferenceIdeal.dot_S50000x128_S128x128_S50000x128_1_0_0_1_n_n]; rfl
theorem lhsR_1 (j : Cert.ReferenceIdeal.S50000x128.Idx) (k : DR.contr.Idx) : (DR.lhsIdx j k 1 : ℕ) = k ⟨0, by decide⟩ := by
  simp [DotDims.lhsIdx, DR, Cert.ReferenceIdeal.dot_S50000x128_S128x128_S50000x128_1_0_0_1_n_n]; rfl
theorem rhsR_0 (j : Cert.ReferenceIdeal.S50000x128.Idx) (k : DR.contr.Idx) : (DR.rhsIdx j k 0 : ℕ) = k ⟨0, by decide⟩ := by
  simp [DotDims.rhsIdx, DR, Cert.ReferenceIdeal.dot_S50000x128_S128x128_S50000x128_1_0_0_1_n_n]; rfl
theorem rhsR_1 (j : Cert.ReferenceIdeal.S50000x128.Idx) (k : DR.contr.Idx) : (DR.rhsIdx j k 1 : ℕ) = j 1 := by
  simp [DotDims.rhsIdx, DR, Cert.ReferenceIdeal.dot_S50000x128_S128x128_S50000x128_1_0_0_1_n_n]; rfl

theorem lhsK_0 (j : Cert.KernelIdeal.S5000x128.Idx) (k : DK.contr.Idx) : (DK.lhsIdx j k 0 : ℕ) = j 0 := by
  simp [DotDims.lhsIdx, DK, Cert.KernelIdeal.dot_S5000x128_S128x128_S5000x128_1_0_0_1_n_n]; rfl
theorem lhsK_1 (j : Cert.KernelIdeal.S5000x128.Idx) (k : DK.contr.Idx) : (DK.lhsIdx j k 1 : ℕ) = k ⟨0, by decide⟩ := by
  simp [DotDims.lhsIdx, DK, Cert.KernelIdeal.dot_S5000x128_S128x128_S5000x128_1_0_0_1_n_n]; rfl
theorem rhsK_0 (j : Cert.KernelIdeal.S5000x128.Idx) (k : DK.contr.Idx) : (DK.rhsIdx j k 0 : ℕ) = k ⟨0, by decide⟩ := by
  simp [DotDims.rhsIdx, DK, Cert.KernelIdeal.dot_S5000x128_S128x128_S5000x128_1_0_0_1_n_n]; rfl
theorem rhsK_1 (j : Cert.KernelIdeal.S5000x128.Idx) (k : DK.contr.Idx) : (DK.rhsIdx j k 1 : ℕ) = j 1 := by
  simp [DotDims.rhsIdx, DK, Cert.KernelIdeal.dot_S5000x128_S128x128_S5000x128_1_0_0_1_n_n]; rfl

/-- The reference's product at (r, q) is the sum over k of x[r, k] · w[k, q]. -/
theorem mm_apply (X : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    Cert.Glue.mm (F := Ideal) X W (ix2 r q) = ∑ k : Fin 128, X (ix2 r k) * W (ix2 k q) := by
  unfold Cert.Glue.mm
  simp only [Host.dotGeneral]
  refine (Ideal.dotGeneral_apply DR none _ X W (ix2 r q)).trans ?_
  rw [← Equiv.sum_comp (contrEquiv1 DR 128 rfl rfl).symm]
  refine Finset.sum_congr rfl fun k _ => ?_
  congr 1
  · refine congrArg X (funext fun a => Fin.ext ?_)
    match a with
    | ⟨0, _⟩ => exact lhsR_0 _ _
    | ⟨1, _⟩ => exact (lhsR_1 _ _).trans (contrEquiv1_symm_val DR 128 rfl rfl k)
  · refine congrArg W (funext fun a => Fin.ext ?_)
    match a with
    | ⟨0, _⟩ => exact (rhsR_0 _ _).trans (contrEquiv1_symm_val DR 128 rfl rfl k)
    | ⟨1, _⟩ => exact rhsR_1 _ _

/-- The kernel's product of a block at (p, q) is the sum over k of xb[p, k] · wb[k, q]. -/
theorem blockProduct_apply (xb : FVec Ideal Cert.KernelIdeal.S5000x128 .bf16) (wb : FVec Ideal Cert.KernelIdeal.S128x128 .bf16)
    (p : Fin 5000) (q : Fin 128) :
    matmul DK none xb wb (constant Cert.KernelIdeal.S5000x128 .f32 0x00000000#32) (ix2 p q)
      = ∑ k : Fin 128, xb (ix2 p k) * wb (ix2 k q) := by
  simp only [matmul]
  refine (Ideal.matmul_constant_zero_apply DK none xb wb (ix2 p q)).trans ?_
  rw [← Equiv.sum_comp (contrEquiv1 DK 128 rfl rfl).symm]
  refine Finset.sum_congr rfl fun k _ => ?_
  congr 1
  · refine congrArg xb (funext fun a => Fin.ext ?_)
    match a with
    | ⟨0, _⟩ => exact lhsK_0 _ _
    | ⟨1, _⟩ => exact (lhsK_1 _ _).trans (contrEquiv1_symm_val DK 128 rfl rfl k)
  · refine congrArg wb (funext fun a => Fin.ext ?_)
    match a with
    | ⟨0, _⟩ => exact (rhsK_0 _ _).trans (contrEquiv1_symm_val DK 128 rfl rfl k)
    | ⟨1, _⟩ => exact rhsK_1 _ _

/-- Region 0's payload at (p, q). -/
theorem pay_mm0 (xb : Vec Ideal Cert.KernelIdeal.S5000x128 .f32) (wb : Vec Ideal Cert.KernelIdeal.S128x128 .f32)
    (p : Fin 5000) (q : Fin 128) :
    Cert.KernelIdeal.Gen.k0_pay1 (F := Ideal) xb wb (ix2 p q) = ∑ k : Fin 128, xb (ix2 p k) * wb (ix2 k q) := by
  unfold Cert.KernelIdeal.Gen.k0_pay1
  exact blockProduct_apply _ _ p q

/-- Region 2's payload at (p, q): the same product (its identity reshape of the block dropped). -/
theorem pay_mm2 (xb : Vec Ideal Cert.KernelIdeal.S5000x128 .f32) (wb : Vec Ideal Cert.KernelIdeal.S128x128 .f32)
    (p : Fin 5000) (q : Fin 128) :
    Cert.KernelIdeal.Gen.k2_pay1 (F := Ideal) xb wb (ix2 p q) = ∑ k : Fin 128, xb (ix2 p k) * wb (ix2 k q) := by
  unfold Cert.KernelIdeal.Gen.k2_pay1
  rw [shapeCast_self]
  exact blockProduct_apply _ _ p q

end Cert.Dense

end
-- ==== Proof.Blocks0.lean ====
/-
  Region 0 (the first dense product), from blocks to the array: grid point t reads rows 5000·t … 5000·t + 4999 of x and
  the whole of w, and writes back that slab of rows of x · w; the ten slabs tile the 50000 rows, so after the region
  the output array holds x · w.
-/
import proofs.«126857_j15487652069901_2_alg».proof.Proof.Gen.KernelIdeal.Frame
import proofs.«126857_j15487652069901_2_alg».proof.Proof.Dense

set_option maxRecDepth 16384

noncomputable section

open scoped BigOperators

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices of region 0's windows at each grid point: the row slab t of x and of the output, the whole of w. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed0 (c : Dev nD) (t : Fin cfg0.N) :
    (dat0 V c).flushed 2 t
      = ((cfg0.win 2).blk t).view.read (Elt Ideal) (Cert.Glue.mm (F := Ideal) (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := index0 t
  have ht : t.val < 10 := lt_of_lt_of_eq t.isLt N_0
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Glue.mm (F := Ideal) (V c main_arg0) (V c main_arg3) (((cfg0.win 2).blk t).view.emb (ix2 p q))
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine (Cert.Dense.pay_mm0 (iblk0 V c 0 t) (iblk0 V c 1 t) p q).trans ?_
  refine Eq.trans ?_ (Cert.Dense.mm_apply (V c main_arg0) (V c main_arg3) _ q).symm
  refine Finset.sum_congr rfl fun k _ => ?_
  congr 1
  · show V c main_arg0 (((cfg0.win 0).blk t).view.emb (ix2 p k)) = V c main_arg0 (ix2 (⟨t.val * 5000 + p.val, by omega⟩ : Fin 50000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point t's block iff each coordinate is in the block's range on its axis. -/
theorem mem_blk0 (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every row is in the slab of the point numbered (row / 5000). -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5⟩ := index0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array holds the product of the two arrays it read. -/
theorem final0 (c : Dev nD) :
    (dat0 V c).arrAt 2 cfg0.N = Cert.Glue.mm (F := Ideal) (V c main_arg0) (V c main_arg3) :=
  (dat0 V c).arrAt_eq_of_cover 2 _ (fun t _ => flushed0 V c t) cover0

end Cert.KernelIdeal.Blocks

end
-- ==== Proof.Pointwise.lean ====
/-
  The two programs' pointwise pieces read at ONE entry, over the extended reals, and the two identities that join them.

  Batch normalisation and elu of an entry a with per-feature parameters: y = (a + b − mean) · (var + ε)^(-1/2) · gamma + beta,
  then elu(y) = y where y > 0 and e^y − 1 elsewhere. The reference writes the second branch as 1 · expm1(z) with z = y
  where y ≤ 0 (and 0 elsewhere, where that branch is not taken); expm1(z) = e^z − 1 and the pattern of 1.0 is 1, so the
  two spellings are one function of y. The fusion is (emb + h1 + (agg + b)) divided by 3 in the reference and multiplied
  by the constant named 1/3 in the kernel: on the extended reals dividing by the real 3 IS multiplying by 1/3.
-/
import proofs.«126857_j15487652069901_2_alg».proof.Proof.Glue
import proofs.«126857_j15487652069901_2_alg».proof.Proof.Consts
import proofs.«126857_j15487652069901_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Pointwise

open Idealize.ShloMosaic Idealize.ShloMosaic.ValueIdx

/-! ### The scalar functions -/

/-- The batch normalisation of one entry (the bias added first). -/
def bn (a b g be mu va : EReal) : EReal :=
  ((a + b) - mu) * Ideal.rsqrt (va + Ideal.ofBits .f32 0x3727C5AC#32) * g + be

/-- elu of one entry as the kernel spells it: y where y > 0, else e^y − 1. -/
def eluK (y : EReal) : EReal :=
  Scalar.select (Ideal.cmp .ogt y (Ideal.ofBits .f32 0x00000000#32)) y (Ideal.exp y - Ideal.ofBits .f32 0x3F800000#32)

/-- elu of one entry as the reference spells it: y where y > 0, else 1 · expm1 of (0 where y > 0, else y). -/
def eluR (y : EReal) : EReal :=
  Scalar.select (Ideal.cmp .ogt y (Ideal.ofBits .f32 0x00000000#32)) y
    (Ideal.ofBits .f32 0x3F800000#32 *
      (Ideal.exp (Scalar.select (Ideal.cmp .ogt y (Ideal.ofBits .f32 0x00000000#32)) (Ideal.ofBits .f32 0x00000000#32) y) - 1))

/-- The two spellings of elu are one function. -/
theorem eluR_eq (y : EReal) : eluR y = eluK y := by
  unfold eluR eluK
  rcases BitVec.eq_zero_or_eq_one (Ideal.cmp .ogt y (Ideal.ofBits .f32 0x00000000#32)) with h | h
  · rw [h]; simp only [select_zero]; rw [Cert.Consts.ofBits_one, one_mul]
  · rw [h]; simp only [select_one]

/-- The kernel's named constant is the rational 1/3. -/
theorem inv3 : Named.named (F := Ideal) Cert.KernelIdeal.κ "inv_3" (φ := .f32) 0x3EAAAAAB#32 = ((1 / 3 : ℝ) : EReal) :=
  IdealRules.named_const.ideal_named_scalar _ _ _ _ rfl

/-- Dividing by 3.0 is multiplying by the constant named 1/3, on every extended real. -/
theorem div3 (s : EReal) :
    Ideal.div s (Ideal.ofBits .f32 0x40400000#32) = s * Named.named (F := Ideal) Cert.KernelIdeal.κ "inv_3" (φ := .f32) 0x3EAAAAAB#32 := by
  rw [Cert.Consts.ofBits_three, Ideal.div_coe (by norm_num : (3 : ℝ) ≠ 0), inv3]

/-! ### The reference's operations at an index -/

/-- A scalar constant filled into a shape reads that constant everywhere. -/
theorem fill_apply (s : Shape) (h : Cert.ReferenceIdeal.S_.BroadcastsInDim s (![] : Fin 0 → Fin s.rank)) (w : BitVec 32) (j : s.Idx) :
    Cert.Glue.fill (F := Ideal) s h w j = Ideal.ofBits .f32 w :=
  broadcastInDim_apply _ h _ j ix0 (fun a => a.elim0)

/-- A parameter vector repeated along the rows reads, at (r, q), its entry q. -/
theorem rows_apply (p : (⟨Cert.ReferenceIdeal.S128, .f32⟩ : BufTy).Contents (Elt Ideal)) (r : Fin 50000) (q : Fin 128) :
    Cert.Glue.rows (F := Ideal) p (ix2 r q) = p (ix1 q) :=
  (broadcastInDim_apply _ _ _ (ix2 r q) (ix2 (0 : Fin 1) q) (fun a => by match a with | ⟨0, _⟩ => rfl | ⟨1, _⟩ => rfl)).trans
    (broadcastInDim_apply _ _ _ (ix2 (0 : Fin 1) q) (ix1 q) (fun a => by match a with | ⟨0, _⟩ => rfl))

/-- The reference's first layer after the aggregation, at (r, q). -/
theorem bnElu_apply (A : (⟨Cert.ReferenceIdeal.S50000x128, .f32⟩ : BufTy).Contents (Elt Ideal))
    (b0 g be mu va : (⟨Cert.ReferenceIdeal.S128, .f32⟩ : BufTy).Contents (Elt Ideal)) (r : Fin 50000) (q : Fin 128) :
    Cert.Glue.bnElu (F := Ideal) A b0 g be mu va (ix2 r q)
      = eluR (bn (A (ix2 r q)) (b0 (ix1 q)) (g (ix1 q)) (be (ix1 q)) (mu (ix1 q)) (va (ix1 q))) := by
  unfold Cert.Glue.bnElu Cert.Glue.elu eluR bn
  simp only [id]
  simp only [select_apply, cmpf_apply, mulf_apply, addf_apply, subf_apply, fill_apply, rows_apply, Host.expm1, Host.rsqrt, id,
    Ideal.hostUnary_expm1_def, Ideal.hostUnary_rsqrt_def, Ideal.cmpf_def]
  rfl

/-- The reference's fusion at (r, q). -/
theorem fuse_apply (E H A : (⟨Cert.ReferenceIdeal.S50000x128, .f32⟩ : BufTy).Contents (Elt Ideal))
    (b1 : (⟨Cert.ReferenceIdeal.S128, .f32⟩ : BufTy).Contents (Elt Ideal)) (r : Fin 50000) (q : Fin 128) :
    Cert.Glue.fuse (F := Ideal) E H A b1 (ix2 r q)
      = Ideal.div ((E (ix2 r q) + H (ix2 r q)) + (A (ix2 r q) + b1 (ix1 q))) (Ideal.ofBits .f32 0x40400000#32) := by
  unfold Cert.Glue.fuse
  simp only [Host.divf, addf_apply, fill_apply, rows_apply, Ideal.hostDivf_def]

/-! ### The kernel's payloads at an index -/

/-- Region 1's payload at (p, q): elu of the batch normalisation of the block's entry, the parameters read off their
    one-row blocks. -/
theorem pay_bnElu (x0 : Vec Ideal Cert.KernelIdeal.S5000x128 .f32) (b va mu g be : Vec Ideal Cert.KernelIdeal.S1x128 .f32)
    (p : Fin 5000) (q : Fin 128) :
    Cert.KernelIdeal.Gen.k1_pay1 (F := Ideal) x0 b va mu g be (ix2 p q)
      = eluK (bn (x0 (ix2 p q)) (b (ix2 (0 : Fin 1) q)) (g (ix2 (0 : Fin 1) q)) (be (ix2 (0 : Fin 1) q)) (mu (ix2 (0 : Fin 1) q))
          (va (ix2 (0 : Fin 1) q))) := by
  unfold Cert.KernelIdeal.Gen.k1_pay1 eluK bn
  simp only [shapeCast_self, select_apply, cmpf_apply, subf_apply, addf_apply, mulf_apply, broadcast_apply,
    broadcastTo_1b_ab_apply, Idealize.ShloMosaic.rsqrt, Idealize.ShloMosaic.exp, Ideal.rsqrt_def, Ideal.exp_def, Ideal.cmpf_def]
  rfl

/-- Region 3's payload at (p, q): (emb + h1 + (agg + b)) times the constant named 1/3. -/
theorem pay_fuse (a2 : Vec Ideal Cert.KernelIdeal.S5000x128 .f32) (b : Vec Ideal Cert.KernelIdeal.S1x128 .f32)
    (e h : Vec Ideal Cert.KernelIdeal.S5000x128 .f32) (p : Fin 5000) (q : Fin 128) :
    Cert.KernelIdeal.Gen.k3_pay1 (F := Ideal) a2 b e h (ix2 p q)
      = ((e (ix2 p q) + h (ix2 p q)) + (a2 (ix2 p q) + b (ix2 (0 : Fin 1) q)))
          * Named.named (F := Ideal) Cert.KernelIdeal.κ "inv_3" (φ := .f32) 0x3EAAAAAB#32 := by
  unfold Cert.KernelIdeal.Gen.k3_pay1
  simp only [shapeCast_self, addf_apply, mulf_apply, broadcast_apply, broadcastTo_1b_ab_apply]

end Cert.Pointwise

end
-- ==== Proof.Blocks1.lean ====
/-
  Region 1 (the bias, the batch normalisation and elu), from blocks to the array: grid point t reads rows
  5000·t … 5000·t + 4999 of the aggregated features and the five one-row parameter arrays, and writes back that slab of
  rows of elu(bn(·)); the ten slabs tile the 50000 rows. The parameter arrays are the 128-vectors b0, gamma, beta, mean,
  var laid out as one row each, which is all that is assumed of them here.
-/
import proofs.«126857_j15487652069901_2_alg».proof.Proof.Gen.KernelIdeal.Frame
import proofs.«126857_j15487652069901_2_alg».proof.Proof.Dense
import proofs.«126857_j15487652069901_2_alg».proof.Proof.Pointwise

set_option maxRecDepth 16384

noncomputable section

open scoped BigOperators

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets1 : (![0, 0] : Fin 2 → Nat) = fun _ => 0 := funext fun a => by fin_cases a <;> rfl

/-- The block indices of region 1's windows at each grid point: the row slab t of the features and of the output, the
    one row of each parameter array. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (b0 g be mu va : (⟨Cert.ReferenceIdeal.S128, .f32⟩ : BufTy).Contents (Elt Ideal))

/-- What point t writes back is block t of elu(bn(·)) of the feature array as the region finds it. -/
theorem flushed1 (c : Dev nD)
    (hb : ∀ q : Fin 128, V c main_v49 (ix2 (0 : Fin 1) q) = b0 (ix1 q))
    (hg : ∀ q : Fin 128, V c main_v50 (ix2 (0 : Fin 1) q) = g (ix1 q))
    (hbe : ∀ q : Fin 128, V c main_v51 (ix2 (0 : Fin 1) q) = be (ix1 q))
    (hmu : ∀ q : Fin 128, V c main_v52 (ix2 (0 : Fin 1) q) = mu (ix1 q))
    (hva : ∀ q : Fin 128, V c main_v53 (ix2 (0 : Fin 1) q) = va (ix1 q))
    (t : Fin cfg1.N) :
    (dat1 V c).flushed 6 t
      = ((cfg1.win 6).blk t).view.read (Elt Ideal) (Cert.Glue.bnElu (F := Ideal) (V c main_v48) b0 g be mu va) := by
  show (cfg1.win 6).cut (grid1.coords t) ((dat1 V c).after 6 t) = _
  rw [after1_6]
  unfold out1_6
  rw [View.canon_unit_zero zeroOffsets1]
  simp only [View.ld_unit_zero (S := S5000x128) zeroOffsets1, View.ld_unit_zero (S := S1x128) zeroOffsets1]
  obtain ⟨e00, e01, e10, e11, e20, e21, e30, e31, e40, e41, e50, e51, e60, e61⟩ := index1 t
  have ht : t.val < 10 := lt_of_lt_of_eq t.isLt N_1
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 5 t) (iblk1 V c 4 t) (iblk1 V c 2 t) (iblk1 V c 3 t) (ix2 p q)
    = Cert.Glue.bnElu (F := Ideal) (V c main_v48) b0 g be mu va (((cfg1.win 6).blk t).view.emb (ix2 p q))
  have hemb : ((cfg1.win 6).blk t).view.emb (ix2 p q) = ix2 (⟨t.val * 5000 + p.val, by omega⟩ : Fin 50000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  rw [hemb]
  refine (Cert.Pointwise.pay_bnElu (iblk1 V c 0 t) (iblk1 V c 1 t) (iblk1 V c 5 t) (iblk1 V c 4 t) (iblk1 V c 2 t) (iblk1 V c 3 t) p q).trans ?_
  refine Eq.trans ?_ ((Cert.Pointwise.bnElu_apply (V c main_v48) b0 g be mu va _ q).trans (Cert.Pointwise.eluR_eq _)).symm
  have h0 : iblk1 V c 0 t (ix2 p q) = V c main_v48 (ix2 (⟨t.val * 5000 + p.val, by omega⟩ : Fin 50000) q) := by
    show V c main_v48 (((cfg1.win 0).blk t).view.emb (ix2 p q)) = _
    refine congrArg (V c main_v48) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 (0 : Fin 1) q) = b0 (ix1 q) := by
    refine Eq.trans ?_ (hb q)
    show V c main_v49 (((cfg1.win 1).blk t).view.emb (ix2 (0 : Fin 1) q)) = _
    refine congrArg (V c main_v49) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have h2 : iblk1 V c 2 t (ix2 (0 : Fin 1) q) = g (ix1 q) := by
    refine Eq.trans ?_ (hg q)
    show V c main_v50 (((cfg1.win 2).blk t).view.emb (ix2 (0 : Fin 1) q)) = _
    refine congrArg (V c main_v50) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 (0 : Fin 1) q) = be (ix1 q) := by
    refine Eq.trans ?_ (hbe q)
    show V c main_v51 (((cfg1.win 3).blk t).view.emb (ix2 (0 : Fin 1) q)) = _
    refine congrArg (V c main_v51) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  have h4 : iblk1 V c 4 t (ix2 (0 : Fin 1) q) = mu (ix1 q) := by
    refine Eq.trans ?_ (hmu q)
    show V c main_v52 (((cfg1.win 4).blk t).view.emb (ix2 (0 : Fin 1) q)) = _
    refine congrArg (V c main_v52) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  have h5 : iblk1 V c 5 t (ix2 (0 : Fin 1) q) = va (ix1 q) := by
    refine Eq.trans ?_ (hva q)
    show V c main_v53 (((cfg1.win 5).blk t).view.emb (ix2 (0 : Fin 1) q)) = _
    refine congrArg (V c main_v53) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  rw [h0, h1, h2, h3, h4, h5]

/-- An index of the output array is in point t's block iff each coordinate is in the block's range on its axis. -/
theorem mem_blk1 (t : Fin cfg1.N) (i : S50000x128.Idx) :
    i ∈ ((cfg1.win 6).blk t).view.set
      ↔ ∀ a : Fin 2, win1_6.index t a * S5000x128.size a ≤ (i a).val ∧ (i a).val < win1_6.index t a * S5000x128.size a + S5000x128.size a := by
  show i ∈ ((View.whole main_v54).slice (win1_6.rect t)).set ↔ _
  rw [View.set_slice_whole, Rect.mem_set_unit]
  exact Iff.rfl

/-- Every row is in the slab of the point numbered (row / 5000). -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e00, e01, e10, e11, e20, e21, e30, e31, e40, e41, e50, e51, e60, e61⟩ := index1 t
  have e60' : win1_6.index t (0 : Fin 2) = (i 0).val / 5000 := e60
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After region 1 its output array holds elu(bn(·)) of the feature array it read. -/
theorem final1 (c : Dev nD)
    (hb : ∀ q : Fin 128, V c main_v49 (ix2 (0 : Fin 1) q) = b0 (ix1 q))
    (hg : ∀ q : Fin 128, V c main_v50 (ix2 (0 : Fin 1) q) = g (ix1 q))
    (hbe : ∀ q : Fin 128, V c main_v51 (ix2 (0 : Fin 1) q) = be (ix1 q))
    (hmu : ∀ q : Fin 128, V c main_v52 (ix2 (0 : Fin 1) q) = mu (ix1 q))
    (hva : ∀ q : Fin 128, V c main_v53 (ix2 (0 : Fin 1) q) = va (ix1 q)) :
    (dat1 V c).arrAt 6 cfg1.N = Cert.Glue.bnElu (F := Ideal) (V c main_v48) b0 g be mu va :=
  (dat1 V c).arrAt_eq_of_cover 6 _ (fun t _ => flushed1 V b0 g be mu va c hb hg hbe hmu hva t) cover1

end

end Cert.KernelIdeal.Blocks

end
-- ==== Proof.Blocks2.lean ====
/-
  Region 2 (the second dense product), from blocks to the array: grid point t reads rows 5000·t … 5000·t + 4999 of h1 and
  the whole of w, and writes back that slab of rows of h1 · w; the ten slabs tile the 50000 rows.
-/
import proofs.«126857_j15487652069901_2_alg».proof.Proof.Gen.KernelIdeal.Frame
import proofs.«126857_j15487652069901_2_alg».proof.Proof.Dense
import proofs.«126857_j15487652069901_2_alg».proof.Proof.Pointwise

set_option maxRecDepth 16384

noncomputable section

open scoped BigOperators

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets2 : (![0, 0] : Fin 2 → Nat) = fun _ => 0 := funext fun a => by fin_cases a <;> rfl

/-- The block indices of region 2's windows at each grid point. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed2 (c : Dev nD) (t : Fin cfg2.N) :
    (dat2 V c).flushed 2 t
      = ((cfg2.win 2).blk t).view.read (Elt Ideal) (Cert.Glue.mm (F := Ideal) (V c main_v54) (V c main_arg5)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  obtain ⟨e0, e1, e2, e3, e4, e5⟩ := index2 t
  have ht : t.val < 10 := lt_of_lt_of_eq t.isLt N_2
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Glue.mm (F := Ideal) (V c main_v54) (V c main_arg5) (((cfg2.win 2).blk t).view.emb (ix2 p q))
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb]
  refine (Cert.Dense.pay_mm2 (iblk2 V c 0 t) (iblk2 V c 1 t) p q).trans ?_
  refine Eq.trans ?_ (Cert.Dense.mm_apply (V c main_v54) (V c main_arg5) _ q).symm
  refine Finset.sum_congr rfl fun k _ => ?_
  congr 1
  · show V c main_v54 (((cfg2.win 0).blk t).view.emb (ix2 p k)) = V c main_v54 (ix2 (⟨t.val * 5000 + p.val, by omega⟩ : Fin 50000) k)
    refine congrArg (V c main_v54) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg5 (((cfg2.win 1).blk t).view.emb (ix2 k q)) = V c main_arg5 (ix2 k q)
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point t's block iff each coordinate is in the block's range on its axis. -/
theorem mem_blk2 (t : Fin cfg2.N) (i : S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v55).slice (win2_2.rect t)).set ↔ _
  rw [View.set_slice_whole, Rect.mem_set_unit]
  exact Iff.rfl

/-- Every row is in the slab of the point numbered (row / 5000). -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨e0, e1, e2, e3, e4, e5⟩ := index2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array holds the product of the two arrays it read. -/
theorem final2 (c : Dev nD) :
    (dat2 V c).arrAt 2 cfg2.N = Cert.Glue.mm (F := Ideal) (V c main_v54) (V c main_arg5) :=
  (dat2 V c).arrAt_eq_of_cover 2 _ (fun t _ => flushed2 V c t) cover2

end Cert.KernelIdeal.Blocks

end
-- ==== Proof.Blocks3.lean ====
/-
  Region 3 (the fusion), from blocks to the array: grid point t reads rows 5000·t … 5000·t + 4999 of the embedding, of h1
  and of the second aggregation and the one-row bias array, and writes back that slab of rows of
  (emb + h1 + (agg + b1)) / 3; the ten slabs tile the 50000 rows.
-/
import proofs.«126857_j15487652069901_2_alg».proof.Proof.Gen.KernelIdeal.Frame
import proofs.«126857_j15487652069901_2_alg».proof.Proof.Dense
import proofs.«126857_j15487652069901_2_alg».proof.Proof.Pointwise

set_option maxRecDepth 16384

noncomputable section

open scoped BigOperators

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets3 : (![0, 0] : Fin 2 → Nat) = fun _ => 0 := funext fun a => by fin_cases a <;> rfl

/-- The block indices of region 3's windows at each grid point: the row slab t of the three feature arrays and of the
    output, the one row of the bias array. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (b1 : (⟨Cert.ReferenceIdeal.S128, .f32⟩ : BufTy).Contents (Elt Ideal))

/-- What point t writes back is block t of the fusion of the arrays as the region finds them. -/
theorem flushed3 (c : Dev nD) (hb : ∀ q : Fin 128, V c main_v69 (ix2 (0 : Fin 1) q) = b1 (ix1 q)) (t : Fin cfg3.N) :
    (dat3 V c).flushed 4 t
      = ((cfg3.win 4).blk t).view.read (Elt Ideal)
          (Cert.Glue.fuse (F := Ideal) (V c main_arg0) (V c main_v54) (V c main_v68) b1) := by
  show (cfg3.win 4).cut (grid3.coords t) ((dat3 V c).after 4 t) = _
  rw [after3_4]
  unfold out3_4
  rw [View.canon_unit_zero zeroOffsets3]
  simp only [View.ld_unit_zero (S := S5000x128) zeroOffsets3, View.ld_unit_zero (S := S1x128) zeroOffsets3]
  obtain ⟨e00, e01, e10, e11, e20, e21, e30, e31, e40, e41⟩ := index3 t
  have ht : t.val < 10 := lt_of_lt_of_eq t.isLt N_3
  funext j
  obtain ⟨p, q, rfl⟩ : ∃ (p : Fin 5000) (q : Fin 128), j = ix2 p q := ⟨j 0, j 1, eq_ix2 j⟩
  show k3_pay1 (iblk3 V c 2 t) (iblk3 V c 3 t) (iblk3 V c 0 t) (iblk3 V c 1 t) (ix2 p q)
    = Cert.Glue.fuse (F := Ideal) (V c main_arg0) (V c main_v54) (V c main_v68) b1 (((cfg3.win 4).blk t).view.emb (ix2 p q))
  have hemb : ((cfg3.win 4).blk t).view.emb (ix2 p q) = ix2 (⟨t.val * 5000 + p.val, by omega⟩ : Fin 50000) q := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * q.val = q.val; omega
  rw [hemb]
  refine (Cert.Pointwise.pay_fuse (iblk3 V c 2 t) (iblk3 V c 3 t) (iblk3 V c 0 t) (iblk3 V c 1 t) p q).trans ?_
  refine Eq.trans ?_ ((Cert.Pointwise.fuse_apply (V c main_arg0) (V c main_v54) (V c main_v68) b1 _ q).trans (Cert.Pointwise.div3 _)).symm
  have h0 : iblk3 V c 0 t (ix2 p q) = V c main_arg0 (ix2 (⟨t.val * 5000 + p.val, by omega⟩ : Fin 50000) q) := by
    show V c main_arg0 (((cfg3.win 0).blk t).view.emb (ix2 p q)) = _
    refine congrArg (V c main_arg0) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 p q) = V c main_v54 (ix2 (⟨t.val * 5000 + p.val, by omega⟩ : Fin 50000) q) := by
    show V c main_v54 (((cfg3.win 1).blk t).view.emb (ix2 p q)) = _
    refine congrArg (V c main_v54) (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * q.val = q.val; omega
  have h2 : iblk3 V c 2 t (ix2 p q) = V c main_v68 (ix2 (⟨t.val * 5000 + p.val, by omega⟩ : Fin 50000) q) := by
    show V c main_v68 (((cfg3.win 2).blk t).view.emb (ix2 p q)) = _
    refine congrArg (V c main_v68) (funext fun a => Fin.ext ?_)
    match a with
    | ⟨0, _⟩ => show win3_2.index t (0 : Fin 2) * 5000 + 1 * p.val = t.val * 5000 + p.val; omega
    | ⟨1, _⟩ => show win3_2.index t (1 : Fin 2) * 128 + 1 * q.val = q.val; omega
  have h3 : iblk3 V c 3 t (ix2 (0 : Fin 1) q) = b1 (ix1 q) := by
    refine Eq.trans ?_ (hb q)
    show V c main_v69 (((cfg3.win 3).blk t).view.emb (ix2 (0 : Fin 1) q)) = _
    refine congrArg (V c main_v69) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  rw [h0, h1, h2, h3]

/-- An index of the output array is in point t's block iff each coordinate is in the block's range on its axis. -/
theorem mem_blk3 (t : Fin cfg3.N) (i : S50000x128.Idx) :
    i ∈ ((cfg3.win 4).blk t).view.set
      ↔ ∀ a : Fin 2, win3_4.index t a * S5000x128.size a ≤ (i a).val ∧ (i a).val < win3_4.index t a * S5000x128.size a + S5000x128.size a := by
  show i ∈ ((View.whole main_v70).slice (win3_4.rect t)).set ↔ _
  rw [View.set_slice_whole, Rect.mem_set_unit]
  exact Iff.rfl

/-- Every row is in the slab of the point numbered (row / 5000). -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e00, e01, e10, e11, e20, e21, e30, e31, e40, e41⟩ := index3 t
  have e40' : win3_4.index t (0 : Fin 2) = (i 0).val / 5000 := e40
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After region 3 its output array holds the fusion of the arrays it read. -/
theorem final3 (c : Dev nD) (hb : ∀ q : Fin 128, V c main_v69 (ix2 (0 : Fin 1) q) = b1 (ix1 q)) :
    (dat3 V c).arrAt 4 cfg3.N = Cert.Glue.fuse (F := Ideal) (V c main_arg0) (V c main_v54) (V c main_v68) b1 :=
  (dat3 V c).arrAt_eq_of_cover 4 _ (fun t _ => flushed3 V b1 c hb t) cover3

end

end Cert.KernelIdeal.Blocks

end
-- ==== Proof.Chain.lean ====
/-
  The contents fold of the idealized kernel's program, read at its result: segment by segment from the first region's
  entry to the last region's exit. Region 0 leaves x · W0 in its output; the host stretch after it aggregates that over
  the graph and lays the five parameter vectors out as rows; region 1 leaves h1 = elu(bn(·)); region 2 leaves h1 · W1;
  the next host stretch aggregates that and lays the last bias out as a row; region 3 leaves the fusion. Every buffer a
  later segment reads is either written by exactly one of these or untouched since the first region's entry, so the
  result buffer ends at the reference's function of the eleven arguments.
-/
import proofs.«126857_j15487652069901_2_alg».proof.Proof.Host0
import proofs.«126857_j15487652069901_2_alg».proof.Proof.Blocks0
import proofs.«126857_j15487652069901_2_alg».proof.Proof.Blocks1
import proofs.«126857_j15487652069901_2_alg».proof.Proof.Blocks2
import proofs.«126857_j15487652069901_2_alg».proof.Proof.Blocks3
import Idealize.ShloMosaic.Lib.ValueLayout

set_option maxRecDepth 16384

noncomputable section

namespace Cert.KernelIdeal.Chain

open Idealize.ShloMosaic Idealize.ShloMosaic.TcCoe Idealize.ShloMosaic.StableHlo Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ### Buffers no segment between the first region's entry and a later boundary writes -/

theorem norm6 : W6 m ρ c (Proc.devRef .tc main_v34)
    = Cert.Glue.norm (F := Ideal) (m ((c : Thread nD τ).loc main_arg1)) (m ((c : Thread nD τ).loc main_arg2)) :=
  (W6_of_ne m ρ c main_v34 (by decide)).trans (norm5 m ρ c)
theorem src6 : W6 m ρ c (Proc.devRef .tc main_v3) = Cert.Glue.srcIdx (F := Ideal) (m ((c : Thread nD τ).loc main_arg1)) :=
  (W6_of_ne m ρ c main_v3 (by decide)).trans (src5 m ρ c)
theorem dst6 : W6 m ρ c (Proc.devRef .tc main_v6) = Cert.Glue.dstIdx (F := Ideal) (m ((c : Thread nD τ).loc main_arg1)) :=
  (W6_of_ne m ρ c main_v6 (by decide)).trans (dst5 m ρ c)
/-- The embedding is region 0's first input: an input window's array is left as found. -/
theorem arg0_6 : W6 m ρ c (Proc.devRef .tc main_arg0) = m ((c : Thread nD τ).loc main_arg0) :=
  ((W6_arr m ρ c 0).trans (((dat0 (V5 m ρ) c).arrAt_in 0 rfl _).trans (A_eq0 (V5 m ρ) c 0))).trans (arg0_5 m ρ c)
theorem arg4_6 : W6 m ρ c (Proc.devRef .tc main_arg4) = m ((c : Thread nD τ).loc main_arg4) :=
  (W6_of_ne m ρ c main_arg4 (by decide)).trans (arg4_5 m ρ c)
theorem arg5_6 : W6 m ρ c (Proc.devRef .tc main_arg5) = m ((c : Thread nD τ).loc main_arg5) :=
  (W6_of_ne m ρ c main_arg5 (by decide)).trans (arg5_5 m ρ c)
theorem arg6_6 : W6 m ρ c (Proc.devRef .tc main_arg6) = m ((c : Thread nD τ).loc main_arg6) :=
  (W6_of_ne m ρ c main_arg6 (by decide)).trans (arg6_5 m ρ c)
theorem arg7_6 : W6 m ρ c (Proc.devRef .tc main_arg7) = m ((c : Thread nD τ).loc main_arg7) :=
  (W6_of_ne m ρ c main_arg7 (by decide)).trans (arg7_5 m ρ c)
theorem arg8_6 : W6 m ρ c (Proc.devRef .tc main_arg8) = m ((c : Thread nD τ).loc main_arg8) :=
  (W6_of_ne m ρ c main_arg8 (by decide)).trans (arg8_5 m ρ c)
theorem arg9_6 : W6 m ρ c (Proc.devRef .tc main_arg9) = m ((c : Thread nD τ).loc main_arg9) :=
  (W6_of_ne m ρ c main_arg9 (by decide)).trans (arg9_5 m ρ c)
theorem arg10_6 : W6 m ρ c (Proc.devRef .tc main_arg10) = m ((c : Thread nD τ).loc main_arg10) :=
  (W6_of_ne m ρ c main_arg10 (by decide)).trans (arg10_5 m ρ c)

/-- The host stretch between regions 0 and 1 leaves these as it finds them. -/
theorem keep7_v34 : W7 m ρ c (Proc.devRef .tc main_v34) = W6 m ρ c (Proc.devRef .tc main_v34) := by
  show after hostOps1 (W6 m ρ c) _ = _; dsimp only [hostOps1]; read_fold
theorem keep7_v3 : W7 m ρ c (Proc.devRef .tc main_v3) = W6 m ρ c (Proc.devRef .tc main_v3) := by
  show after hostOps1 (W6 m ρ c) _ = _; dsimp only [hostOps1]; read_fold
theorem keep7_v6 : W7 m ρ c (Proc.devRef .tc main_v6) = W6 m ρ c (Proc.devRef .tc main_v6) := by
  show after hostOps1 (W6 m ρ c) _ = _; dsimp only [hostOps1]; read_fold
theorem keep7_arg0 : W7 m ρ c (Proc.devRef .tc main_arg0) = W6 m ρ c (Proc.devRef .tc main_arg0) := by
  show after hostOps1 (W6 m ρ c) _ = _; dsimp only [hostOps1]; read_fold
theorem keep7_arg5 : W7 m ρ c (Proc.devRef .tc main_arg5) = W6 m ρ c (Proc.devRef .tc main_arg5) := by
  show after hostOps1 (W6 m ρ c) _ = _; dsimp only [hostOps1]; read_fold
theorem keep7_arg6 : W7 m ρ c (Proc.devRef .tc main_arg6) = W6 m ρ c (Proc.devRef .tc main_arg6) := by
  show after hostOps1 (W6 m ρ c) _ = _; dsimp only [hostOps1]; read_fold

/-- At region 3's entry (regions 1 and 2 and the stretch before region 1 write none of these). -/
theorem norm9 : W9 m ρ c (Proc.devRef .tc main_v34)
    = Cert.Glue.norm (F := Ideal) (m ((c : Thread nD τ).loc main_arg1)) (m ((c : Thread nD τ).loc main_arg2)) :=
  (W9_of_ne m ρ c main_v34 (by decide)).trans ((W8_of_ne m ρ c main_v34 (by decide)).trans ((keep7_v34 m ρ c).trans (norm6 m ρ c)))
theorem src9 : W9 m ρ c (Proc.devRef .tc main_v3) = Cert.Glue.srcIdx (F := Ideal) (m ((c : Thread nD τ).loc main_arg1)) :=
  (W9_of_ne m ρ c main_v3 (by decide)).trans ((W8_of_ne m ρ c main_v3 (by decide)).trans ((keep7_v3 m ρ c).trans (src6 m ρ c)))
theorem dst9 : W9 m ρ c (Proc.devRef .tc main_v6) = Cert.Glue.dstIdx (F := Ideal) (m ((c : Thread nD τ).loc main_arg1)) :=
  (W9_of_ne m ρ c main_v6 (by decide)).trans ((W8_of_ne m ρ c main_v6 (by decide)).trans ((keep7_v6 m ρ c).trans (dst6 m ρ c)))
theorem arg0_9 : W9 m ρ c (Proc.devRef .tc main_arg0) = m ((c : Thread nD τ).loc main_arg0) :=
  (W9_of_ne m ρ c main_arg0 (by decide)).trans ((W8_of_ne m ρ c main_arg0 (by decide)).trans ((keep7_arg0 m ρ c).trans (arg0_6 m ρ c)))
theorem arg6_9 : W9 m ρ c (Proc.devRef .tc main_arg6) = m ((c : Thread nD τ).loc main_arg6) :=
  (W9_of_ne m ρ c main_arg6 (by decide)).trans ((W8_of_ne m ρ c main_arg6 (by decide)).trans ((keep7_arg6 m ρ c).trans (arg6_6 m ρ c)))
theorem arg5_8 : W8 m ρ c (Proc.devRef .tc main_arg5) = m ((c : Thread nD τ).loc main_arg5) :=
  (W8_of_ne m ρ c main_arg5 (by decide)).trans ((keep7_arg5 m ρ c).trans (arg5_6 m ρ c))

/-! ### Region 0 and the aggregation after it -/

/-- Region 0 leaves the first dense product. -/
theorem mm6 : W6 m ρ c (Proc.devRef .tc main_v35)
    = Cert.Glue.mm (F := Ideal) (m ((c : Thread nD τ).loc main_arg0)) (m ((c : Thread nD τ).loc main_arg3)) := by
  exact (W6_arr m ρ c 2).trans ((Blocks.final0 (V5 m ρ) c).trans
    (congrArg₂ (Cert.Glue.mm (F := Ideal)) (arg0_5 m ρ c) (arg3_5 m ρ c)))

set_option maxHeartbeats 4000000 in
set_option maxRecDepth 100000 in
/-- The stretch after region 0 aggregates region 0's output over the graph. -/
theorem agg7 : W7 m ρ c (Proc.devRef .tc main_v48)
    = Cert.Glue.agg (F := Ideal) (W6 m ρ c (Proc.devRef .tc main_v35)) (W6 m ρ c (Proc.devRef .tc main_v34))
        (W6 m ρ c (Proc.devRef .tc main_v3)) (W6 m ρ c (Proc.devRef .tc main_v6)) := by
  show after hostOps1 (W6 m ρ c) _ = _; dsimp only [hostOps1]; read_fold
  simp only [Cert.Records.gather2, Cert.Records.scatter2]
  rfl

/-- … and lays each parameter vector out as one row. -/
theorem row7_v49 : W7 m ρ c (Proc.devRef .tc main_v49)
    = fun i => shapeCast S1x128 (W6 m ρ c (Proc.devRef .tc main_arg4)) shapeCasts_S128_S1x128 i := by
  show after hostOps1 (W6 m ρ c) _ = _; dsimp only [hostOps1]; read_fold; rfl
theorem row7_v50 : W7 m ρ c (Proc.devRef .tc main_v50)
    = fun i => shapeCast S1x128 (W6 m ρ c (Proc.devRef .tc main_arg7)) shapeCasts_S128_S1x128 i := by
  show after hostOps1 (W6 m ρ c) _ = _; dsimp only [hostOps1]; read_fold; rfl
theorem row7_v51 : W7 m ρ c (Proc.devRef .tc main_v51)
    = fun i => shapeCast S1x128 (W6 m ρ c (Proc.devRef .tc main_arg8)) shapeCasts_S128_S1x128 i := by
  show after hostOps1 (W6 m ρ c) _ = _; dsimp only [hostOps1]; read_fold; rfl
theorem row7_v52 : W7 m ρ c (Proc.devRef .tc main_v52)
    = fun i => shapeCast S1x128 (W6 m ρ c (Proc.devRef .tc main_arg9)) shapeCasts_S128_S1x128 i := by
  show after hostOps1 (W6 m ρ c) _ = _; dsimp only [hostOps1]; read_fold; rfl
theorem row7_v53 : W7 m ρ c (Proc.devRef .tc main_v53)
    = fun i => shapeCast S1x128 (W6 m ρ c (Proc.devRef .tc main_arg10)) shapeCasts_S128_S1x128 i := by
  show after hostOps1 (W6 m ρ c) _ = _; dsimp only [hostOps1]; read_fold; rfl

/-- A 128-vector laid out as one row reads, at (0, q), its entry q. -/
theorem row_apply (x : (⟨S128, .f32⟩ : BufTy).Contents (Elt Ideal)) (q : Fin 128) :
    (fun i => shapeCast S1x128 x shapeCasts_S128_S1x128 i) (ix2 (0 : Fin 1) q) = x (ix1 q) :=
  shapeCast_a_1a_apply x shapeCasts_S128_S1x128 0 q

/-! ### Region 1: the first layer's output -/

/-- The first layer's output as the reference's function of the arguments. -/
abbrev H1 : (⟨Cert.ReferenceIdeal.S50000x128, .f32⟩ : BufTy).Contents (Elt Ideal) :=
  Cert.Glue.layer1 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg7)) (m ((c : Thread nD τ).loc main_arg8)) (m ((c : Thread nD τ).loc main_arg9))
    (m ((c : Thread nD τ).loc main_arg10))

/-- Region 1 leaves the first layer's output. -/
theorem h1_8 : W8 m ρ c (Proc.devRef .tc main_v54) = H1 m c := by
  refine (W8_arr m ρ c 6).trans ((Blocks.final1 (V7 m ρ)
    (m ((c : Thread nD τ).loc main_arg4)) (m ((c : Thread nD τ).loc main_arg7)) (m ((c : Thread nD τ).loc main_arg8))
    (m ((c : Thread nD τ).loc main_arg9)) (m ((c : Thread nD τ).loc main_arg10)) c ?_ ?_ ?_ ?_ ?_).trans ?_)
  · intro q; show W7 m ρ c (Proc.devRef .tc main_v49) (ix2 (0 : Fin 1) q) = _
    rw [row7_v49 m ρ c, arg4_6 m ρ c]; exact row_apply _ q
  · intro q; show W7 m ρ c (Proc.devRef .tc main_v50) (ix2 (0 : Fin 1) q) = _
    rw [row7_v50 m ρ c, arg7_6 m ρ c]; exact row_apply _ q
  · intro q; show W7 m ρ c (Proc.devRef .tc main_v51) (ix2 (0 : Fin 1) q) = _
    rw [row7_v51 m ρ c, arg8_6 m ρ c]; exact row_apply _ q
  · intro q; show W7 m ρ c (Proc.devRef .tc main_v52) (ix2 (0 : Fin 1) q) = _
    rw [row7_v52 m ρ c, arg9_6 m ρ c]; exact row_apply _ q
  · intro q; show W7 m ρ c (Proc.devRef .tc main_v53) (ix2 (0 : Fin 1) q) = _
    rw [row7_v53 m ρ c, arg10_6 m ρ c]; exact row_apply _ q
  · show Cert.Glue.bnElu (F := Ideal) (W7 m ρ c (Proc.devRef .tc main_v48)) _ _ _ _ _ = _
    rw [agg7 m ρ c, mm6 m ρ c, norm6 m ρ c, src6 m ρ c, dst6 m ρ c]
    rfl

/-! ### Region 2, the second aggregation, region 3 -/

/-- Region 2 leaves the second dense product, of the first layer's output. -/
theorem mm9 : W9 m ρ c (Proc.devRef .tc main_v55)
    = Cert.Glue.mm (F := Ideal) (H1 m c) (m ((c : Thread nD τ).loc main_arg5)) := by
  exact (W9_arr m ρ c 2).trans ((Blocks.final2 (V8 m ρ) c).trans
    (congrArg₂ (Cert.Glue.mm (F := Ideal)) (h1_8 m ρ c) (arg5_8 m ρ c)))

set_option maxHeartbeats 4000000 in
set_option maxRecDepth 100000 in
/-- The stretch before region 3 aggregates region 2's output over the graph … -/
theorem agg10 : W10 m ρ c (Proc.devRef .tc main_v68)
    = Cert.Glue.agg (F := Ideal) (W9 m ρ c (Proc.devRef .tc main_v55)) (W9 m ρ c (Proc.devRef .tc main_v34))
        (W9 m ρ c (Proc.devRef .tc main_v3)) (W9 m ρ c (Proc.devRef .tc main_v6)) := by
  show after hostOps3 (W9 m ρ c) _ = _; dsimp only [hostOps3]; read_fold
  simp only [Cert.Records.gather2, Cert.Records.scatter2]
  rfl
/-- … lays the last bias out as one row … -/
theorem row10_v69 : W10 m ρ c (Proc.devRef .tc main_v69)
    = fun i => shapeCast S1x128 (W9 m ρ c (Proc.devRef .tc main_arg6)) shapeCasts_S128_S1x128 i := by
  show after hostOps3 (W9 m ρ c) _ = _; dsimp only [hostOps3]; read_fold; rfl
/-- … and leaves the embedding and the first layer's output as it finds them. -/
theorem keep10_arg0 : W10 m ρ c (Proc.devRef .tc main_arg0) = W9 m ρ c (Proc.devRef .tc main_arg0) := by
  show after hostOps3 (W9 m ρ c) _ = _; dsimp only [hostOps3]; read_fold
theorem keep10_v54 : W10 m ρ c (Proc.devRef .tc main_v54) = W9 m ρ c (Proc.devRef .tc main_v54) := by
  show after hostOps3 (W9 m ρ c) _ = _; dsimp only [hostOps3]; read_fold

/-- The first layer's output is region 2's first input, which region 2 leaves as found. -/
theorem h1_10 : W10 m ρ c (Proc.devRef .tc main_v54) = H1 m c :=
  (keep10_v54 m ρ c).trans (((W9_arr m ρ c 0).trans (((dat2 (V8 m ρ) c).arrAt_in 0 rfl _).trans (A_eq2 (V8 m ρ) c 0))).trans
    (h1_8 m ρ c))
theorem arg0_10 : W10 m ρ c (Proc.devRef .tc main_arg0) = m ((c : Thread nD τ).loc main_arg0) :=
  (keep10_arg0 m ρ c).trans (arg0_9 m ρ c)

/-- THE RESULT: after the last region the result buffer holds the reference's function of the eleven arguments. -/
theorem result : W11 m ρ c (Proc.devRef .tc main_v70)
    = Cert.Glue.refOut (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W11_arr m ρ c 4).trans ((Blocks.final3 (V10 m ρ) (m ((c : Thread nD τ).loc main_arg6)) c ?_).trans ?_)
  · intro q; show W10 m ρ c (Proc.devRef .tc main_v69) (ix2 (0 : Fin 1) q) = _
    rw [row10_v69 m ρ c, arg6_9 m ρ c]; exact row_apply _ q
  · show Cert.Glue.fuse (F := Ideal) (W10 m ρ c (Proc.devRef .tc main_arg0)) (W10 m ρ c (Proc.devRef .tc main_v54))
      (W10 m ρ c (Proc.devRef .tc main_v68)) _ = _
    rw [arg0_10 m ρ c, h1_10 m ρ c, agg10 m ρ c, mm9 m ρ c, norm9 m ρ c, src9 m ρ c, dst9 m ρ c]
    rfl

end Cert.KernelIdeal.Chain

end
-- ==== Proof.RefRun.lean ====
/- The run of the reference program, read back as a fold.
   @main of the reference is a straight line of host tensor operations; three of its statements are calls of
   outlined functions (two selects against a broadcast scalar, and an ELU that itself calls two selects), whose
   bodies run on the operands' buffers and on the call's own buffers. Written out at the call sites the program is
   one list of 125 operations; every weakly fair execution of it terminates with each buffer at the fold of the
   operations' results over the launch contents, and reading the fold at the result buffer gives the composed
   term of the eleven arguments. -/
import proofs.«126857_j15487652069901_2_alg».proof.Proof.Glue
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first 60 statements of @main as operations, in order: the two calls of the select-against-a-scalar
    function written out over the calls' own buffers (the scalar's copy, its broadcast, the select). -/
abbrev ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S50000 ![] bcast_S_S50000 : (⟨S_, .f32⟩ : BufTy).Contents (Elt F) → (⟨S50000, .f32⟩ : BufTy).Contents (Elt F)),
    StableHlo.binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v11 : StableHlo.TRef sig ⟨S50000, .f32⟩) main_call0.v1 main_call0.v2 select,
    StableHlo.nullary main_cst_3 (constant S_ .f32 0x00000000#32),
    StableHlo.unary main_cst_3 main_v15 (broadcastInDim S50000 ![] bcast_S_S50000 : (⟨S_, .f32⟩ : BufTy).Contents (Elt F) → (⟨S50000, .f32⟩ : BufTy).Contents (Elt F)),
    StableHlo.binary main_v11 main_v15 main_v16 (cmpf .ogt : (⟨S50000, .f32⟩ : BufTy).Contents (Elt F) → (⟨S50000, .f32⟩ : BufTy).Contents (Elt F) → (⟨S50000, .i1⟩ : BufTy).Contents (Elt F)),
    StableHlo.unary main_v14 main_v17 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S50000 ![] bcast_S_S50000),
    StableHlo.TRef.ternary (.of main_v16 : StableHlo.TRef sig ⟨S50000, .i1⟩) (.of main_v17 : StableHlo.TRef sig ⟨S50000, .f32⟩) main_call1.v1 main_call1.v2 select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v3 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v21 (broadcastInDim S850000 ![] bcast_S_S850000 : (⟨S_, .i32⟩ : BufTy).Contents (Elt F) → (⟨S850000, .i32⟩ : BufTy).Contents (Elt F)),
    StableHlo.binary main_v3 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v8 main_v26 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v27 (broadcastInDim S850000 ![] bcast_S_S850000 : (⟨S_, .i32⟩ : BufTy).Contents (Elt F) → (⟨S850000, .i32⟩ : BufTy).Contents (Elt F)),
    StableHlo.binary main_v6 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v29 (broadcastInDim S850000 ![] bcast_S_S850000 : (⟨S_, .i32⟩ : BufTy).Contents (Elt F) → (⟨S850000, .i32⟩ : BufTy).Contents (Elt F)),
    StableHlo.binary main_v6 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v6 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_arg0 main_arg3 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v34 main_v36 (broadcastInDim S850000x1 ![0] bcast_S850000_S850000x1_0 : (⟨S850000, .f32⟩ : BufTy).Contents (Elt F) → (⟨S850000x1, .f32⟩ : BufTy).Contents (Elt F)),
    StableHlo.nullary main_c_8 (constantI S_ 32 0#32),
    StableHlo.unary main_c_8 main_v37 (broadcastInDim S850000 ![] bcast_S_S850000 : (⟨S_, .i32⟩ : BufTy).Contents (Elt F) → (⟨S850000, .i32⟩ : BufTy).Contents (Elt F)),
    StableHlo.binary main_v3 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v39 (broadcastInDim S850000 ![] bcast_S_S850000 : (⟨S_, .i32⟩ : BufTy).Contents (Elt F) → (⟨S850000, .i32⟩ : BufTy).Contents (Elt F)),
    StableHlo.binary main_v3 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v3 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v35 main_v42 main_v43 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v36 main_v44 (broadcastInDim S850000x128 ![0, 1] bcast_S850000x1_S850000x128_0_1 : (⟨S850000x1, .f32⟩ : BufTy).Contents (Elt F) → (⟨S850000x128, .f32⟩ : BufTy).Contents (Elt F)),
    StableHlo.binary main_v44 main_v43 main_v45 (mulf : (⟨S850000x128, .f32⟩ : BufTy).Contents (Elt F) → (⟨S850000x128, .f32⟩ : BufTy).Contents (Elt F) → (⟨S850000x128, .f32⟩ : BufTy).Contents (Elt F)),
    StableHlo.nullary main_cst_10 (constant S_ .f32 0x00000000#32),
    StableHlo.unary main_cst_10 main_v46 (broadcastInDim S50000x128 ![] bcast_S_S50000x128 : (⟨S_, .f32⟩ : BufTy).Contents (Elt F) → (⟨S50000x128, .f32⟩ : BufTy).Contents (Elt F)) ]

/-- The remaining statements of @main as operations, in order: the ELU call written out over its buffers, its
    two inner selects over theirs. -/
abbrev ops1 : List (HloOp τ sig (Elt F)) :=
  [ StableHlo.unary main_v6 main_v47 (broadcastInDim S850000x1 ![0] bcast_S850000_S850000x1_0 : (⟨S850000, .i32⟩ : BufTy).Contents (Elt F) → (⟨S850000x1, .i32⟩ : BufTy).Contents (Elt F)),
    StableHlo.ternary main_v46 main_v47 main_v45 main_v48 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.unary main_arg9 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v55 (broadcastInDim S128 ![] bcast_S_S128 : (⟨S_, .f32⟩ : BufTy).Contents (Elt F) → (⟨S128, .f32⟩ : BufTy).Contents (Elt F)),
    StableHlo.binary main_arg10 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v59 main_v60 (mulf : (⟨S50000x128, .f32⟩ : BufTy).Contents (Elt F) → (⟨S50000x128, .f32⟩ : BufTy).Contents (Elt F) → (⟨S50000x128, .f32⟩ : BufTy).Contents (Elt F)),
    StableHlo.unary main_arg7 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg8 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v66 : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v66 : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v66 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v66 : StableHlo.TRef sig ⟨S50000x128, .f32⟩) main_call2.v7 main_call2.call1.v0 select,
    StableHlo.binary main_v67 main_arg5 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v34 main_v69 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v70 (broadcastInDim S850000 ![] bcast_S_S850000 : (⟨S_, .i32⟩ : BufTy).Contents (Elt F) → (⟨S850000, .i32⟩ : BufTy).Contents (Elt F)),
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v72 (broadcastInDim S850000 ![] bcast_S_S850000 : (⟨S_, .i32⟩ : BufTy).Contents (Elt F) → (⟨S850000, .i32⟩ : BufTy).Contents (Elt F)),
    StableHlo.binary main_v3 main_v72 main_v73 (addi : (⟨S850000, .i32⟩ : BufTy).Contents (Elt F) → (⟨S850000, .i32⟩ : BufTy).Contents (Elt F) → (⟨S850000, .i32⟩ : BufTy).Contents (Elt F)),
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v74 main_v75 (broadcastInDim S850000x1 ![0] bcast_S850000_S850000x1_0 : (⟨S850000, .i32⟩ : BufTy).Contents (Elt F) → (⟨S850000x1, .i32⟩ : BufTy).Contents (Elt F)),
    StableHlo.binary main_v68 main_v75 main_v76 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v69 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v77 main_v76 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_14 (constant S_ .f32 0x00000000#32),
    StableHlo.unary main_cst_14 main_v79 (broadcastInDim S50000x128 ![] bcast_S_S50000x128 : (⟨S_, .f32⟩ : BufTy).Contents (Elt F) → (⟨S50000x128, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.binary main_arg0 main_v67 main_v85 (addf : (⟨S50000x128, .f32⟩ : BufTy).Contents (Elt F) → (⟨S50000x128, .f32⟩ : BufTy).Contents (Elt F) → (⟨S50000x128, .f32⟩ : BufTy).Contents (Elt F)),
    StableHlo.binary main_v85 main_v84 main_v86 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x40400000#32),
    StableHlo.unary main_cst_15 main_v87 (broadcastInDim S50000x128 ![] bcast_S_S50000x128 : (⟨S_, .f32⟩ : BufTy).Contents (Elt F) → (⟨S50000x128, .f32⟩ : BufTy).Contents (Elt F)),
    StableHlo.binary main_v86 main_v87 main_v88 (Host.divf : (⟨S50000x128, .f32⟩ : BufTy).Contents (Elt F) → (⟨S50000x128, .f32⟩ : BufTy).Contents (Elt F) → (⟨S50000x128, .f32⟩ : BufTy).Contents (Elt F)) ]

/-- All of @main's operations. -/
abbrev ops : List (HloOp τ sig (Elt F)) := ops0 ++ ops1

-- the binds of one window re-associated: the rewrite under the chain recurses once per statement
set_option maxRecDepth 4096 in
set_option maxHeartbeats 4000000 in
/-- The first window is that straight line: the called function's definition unfolded at its two calls, both
    sides are one chain of steps once sequencing is reassociated. -/
theorem part0_eq (c : Dev nD) : main_part0 (F := F) c = seq ops0 := by
  simp only [main_part0, fn_where.body, seq, bind_assoc, pure_bind]
  rfl

set_option maxRecDepth 4096 in
set_option maxHeartbeats 4000000 in
/-- The second window likewise, the ELU's definition and its two callees' unfolded. -/
theorem part1_eq (c : Dev nD) : main_part1 (F := F) c = seq ops1 := by
  simp only [main_part1, fn_elu.body, fn_where_0.body, fn_where_1.body, seq, bind_assoc, pure_bind]

/-- @main runs the two windows in order, which is the concatenated line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub ..⟩

theorem ops1_sub : (ops1 : List (HloOp τ sig (Elt F))).Forall fun op => op.bufs ⊆ tcRefs τ sig :=
  ⟨unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., binary_bufs_sub .., nullary_bufs_sub .., unary_bufs_sub ..,
    binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- No operation of the first window leaves a result undetermined. -/
theorem ops0_fresh : ∀ op ∈ (ops0 : List (HloOp τ sig (Elt F))), op.fresh = ∅ := by
  intro _ h; (repeat (cases h with | head => rfl | tail _ h => ?_)); exact nomatch h

/-- Nor of the second. -/
theorem ops1_fresh : ∀ op ∈ (ops1 : List (HloOp τ sig (Elt F))), op.fresh = ∅ := by
  intro _ h; (repeat (cases h with | head => rfl | tail _ h => ?_)); exact nomatch h

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- From any memory with zero counters every weakly fair execution of @main terminates, and every final state has
    each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.mem_append.mp h).elim (ops0_fresh op) (ops1_fresh op))

/-! ## The fold read at the argument buffers and at the result

No operation writes an argument's buffer: each writes its own result buffer, and the eleven argument references are
none of those. At the result buffer the fold is the composition of the operations' functions along the data flow,
which is the shared term of the eleven arguments, definition for definition. -/

set_option maxHeartbeats 2000000 in
set_option maxRecDepth 8192 in
theorem arg0_eq (V : Valuation τ sig (Elt F)) :
    after ops V (Proc.devRef .tc main_arg0) = V (Proc.devRef .tc main_arg0) := by
  rw [after_append]
  after_results_simp

set_option maxHeartbeats 2000000 in
set_option maxRecDepth 8192 in
theorem arg1_eq (V : Valuation τ sig (Elt F)) :
    after ops V (Proc.devRef .tc main_arg1) = V (Proc.devRef .tc main_arg1) := by
  rw [after_append]
  after_results_simp

set_option maxHeartbeats 2000000 in
set_option maxRecDepth 8192 in
theorem arg2_eq (V : Valuation τ sig (Elt F)) :
    after ops V (Proc.devRef .tc main_arg2) = V (Proc.devRef .tc main_arg2) := by
  rw [after_append]
  after_results_simp

set_option maxHeartbeats 2000000 in
set_option maxRecDepth 8192 in
theorem arg3_eq (V : Valuation τ sig (Elt F)) :
    after ops V (Proc.devRef .tc main_arg3) = V (Proc.devRef .tc main_arg3) := by
  rw [after_append]
  after_results_simp

set_option maxHeartbeats 2000000 in
set_option maxRecDepth 8192 in
theorem arg4_eq (V : Valuation τ sig (Elt F)) :
    after ops V (Proc.devRef .tc main_arg4) = V (Proc.devRef .tc main_arg4) := by
  rw [after_append]
  after_results_simp

set_option maxHeartbeats 2000000 in
set_option maxRecDepth 8192 in
theorem arg5_eq (V : Valuation τ sig (Elt F)) :
    after ops V (Proc.devRef .tc main_arg5) = V (Proc.devRef .tc main_arg5) := by
  rw [after_append]
  after_results_simp

set_option maxHeartbeats 2000000 in
set_option maxRecDepth 8192 in
theorem arg6_eq (V : Valuation τ sig (Elt F)) :
    after ops V (Proc.devRef .tc main_arg6) = V (Proc.devRef .tc main_arg6) := by
  rw [after_append]
  after_results_simp

set_option maxHeartbeats 2000000 in
set_option maxRecDepth 8192 in
theorem arg7_eq (V : Valuation τ sig (Elt F)) :
    after ops V (Proc.devRef .tc main_arg7) = V (Proc.devRef .tc main_arg7) := by
  rw [after_append]
  after_results_simp

set_option maxHeartbeats 2000000 in
set_option maxRecDepth 8192 in
theorem arg8_eq (V : Valuation τ sig (Elt F)) :
    after ops V (Proc.devRef .tc main_arg8) = V (Proc.devRef .tc main_arg8) := by
  rw [after_append]
  after_results_simp

set_option maxHeartbeats 2000000 in
set_option maxRecDepth 8192 in
theorem arg9_eq (V : Valuation τ sig (Elt F)) :
    after ops V (Proc.devRef .tc main_arg9) = V (Proc.devRef .tc main_arg9) := by
  rw [after_append]
  after_results_simp

set_option maxHeartbeats 2000000 in
set_option maxRecDepth 8192 in
theorem arg10_eq (V : Valuation τ sig (Elt F)) :
    after ops V (Proc.devRef .tc main_arg10) = V (Proc.devRef .tc main_arg10) := by
  rw [after_append]
  after_results_simp

-- the result's term is deep (the normalisation coefficients and the first layer's output are each read several
-- times), hence the bounds
set_option maxHeartbeats 4000000 in
set_option maxRecDepth 16384 in
/-- The result buffer after the line holds the reference's output term at the arguments' contents: each
    operation's result is rewritten at its own buffer to its function of its operands' contents and passed over at
    every other buffer; what remains is the same composition of pure operations as the shared term, the typed
    references' transports being identities at these literal references. -/
theorem out_eq (V : Valuation τ sig (Elt F)) :
    after ops V (Proc.devRef .tc main_v88) = Cert.Glue.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_append]
  after_results_simp
  rfl

/-- On every device, from any memory with zero counters: every weakly fair execution of the reference's @main
    terminates with the result buffer at the shared output term of the arguments' launch contents, and the eleven
    arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v88) = Cert.Glue.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run _ _ _).mono (fun _ h c => ⟨(h c main_v88).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_all m ρ)

end Cert.ReferenceIdeal.RefRun

end
-- ==== Proof.lean ====
/-
  The kernel is a two-layer graph convolution with a multiscale fusion: with norm(e) the symmetric degree normalisation
  of the 850000 edges (800000 given ones and a self loop per node) and agg(h)[v, :] = Σ over the edges e = (s → v) of
  norm(e) · h[s, :],
      h1  = elu(bn(agg(emb · W0) + b0)),   out = (emb + h1 + (agg(h1 · W1) + b1)) / 3.
  The kernel computes the two dense products, the bias + batch normalisation + elu and the fusion in four grid
  pipelines over 5000-row slabs and the graph part on the host between them; the reference computes everything on the
  host. Over the extended reals the two results are one function of the eleven arguments:
    · a product of a row slab, its operands rounded to bf16 (the identity here) and accumulated into zero, is that slab
      of the whole product, entry by entry the same sum over the contracted axis;
    · elu is spelt y ↦ e^y − 1 below zero by the kernel and y ↦ 1 · expm1(y) by the reference: one function;
    · the kernel multiplies by the constant named 1/3 where the reference divides by 3: one function on every
      extended real;
    · the graph part is the same operations in the same order on both sides.
  The three programs' runs: the kernel's and the idealized kernel's terminate with their arguments unchanged (the
  generated frames); the idealized kernel's result buffer ends at the reference's function of the arguments
  (Proof/KRun, Proof/Chain over Proof/Blocks0 … Blocks3); the reference's run ends there too (Proof/RefRun).
-/
import proofs.«126857_j15487652069901_2_alg».proof.Defs
import proofs.«126857_j15487652069901_2_alg».proof.Proof.Gen.Kernel
import proofs.«126857_j15487652069901_2_alg».proof.Proof.Gen.Kernel.Frame
import proofs.«126857_j15487652069901_2_alg».proof.Proof.Gen.KernelIdeal
import proofs.«126857_j15487652069901_2_alg».proof.Proof.Gen.KernelIdeal.Frame
import proofs.«126857_j15487652069901_2_alg».proof.Proof.Gen.ReferenceIdeal
import proofs.«126857_j15487652069901_2_alg».proof.Proof.Gen.Pre_finite_inputs
import proofs.«126857_j15487652069901_2_alg».proof.Proof.KRun
import proofs.«126857_j15487652069901_2_alg».proof.Proof.Chain
import proofs.«126857_j15487652069901_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs, nothing faulting, its arguments unchanged. -/
theorem frame_kernel : Cert.frame_Kernel := fun m ρ _ => Cert.Kernel.Gen.frame m ρ

/-- The idealized kernel runs, nothing faulting, its arguments unchanged. -/
theorem frame_kernelIdeal : Cert.frame_KernelIdeal := fun m ρ _ => Cert.KernelIdeal.Gen.frame m ρ

/-- The idealized reference runs, nothing faulting, its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The one rewrite of the idealization: the constant 0.33333334 named 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both idealized programs end with the same result: the reference's function
    of the arguments. -/
theorem algebraic : Cert.algebraic_KernelIdeal_ReferenceIdeal := by
  intro m ρ m' ρ' _ hagree
  refine ⟨fun c => Cert.Glue.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
